-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x1024x512 : Shape := ⟨4, ![4, 4, 1024, 512]⟩
abbrev S4x4x8x1024x128 : Shape := ⟨5, ![4, 4, 8, 1024, 128]⟩
abbrev S_ : Shape := ⟨0, ![]⟩

class Facts : Prop where
  bcast_S_S4x4x1024x512 : S_.BroadcastsInDim S4x4x1024x512 (![] : Fin 0 → Fin S4x4x1024x512.rank)
  reducesTo_S4x4x1024x512_S_d0_1_2_3 : S4x4x1024x512.ReducesTo [0, 1, 2, 3] S_
  h_S_ : 0 < S_.numel
  bcast_S_S4x4x8x1024x128 : S_.BroadcastsInDim S4x4x8x1024x128 (![] : Fin 0 → Fin S4x4x8x1024x128.rank)
  reducesTo_S4x4x8x1024x128_S_d0_1_2_3_4 : S4x4x8x1024x128.ReducesTo [0, 1, 2, 3, 4] S_

variable [Facts]

def fn {F : FTy → Type} [FloatOps F] (main_arg0 : FVec F S4x4x1024x512 .f32) (main_arg1 : FVec F S4x4x8x1024x128 .f32) : IVec S_ 1 :=
  let main_v0 : FVec F S4x4x1024x512 .f32 := Host.absf main_arg0
  let main_cst : FVec F S_ .f32 := constant S_ .f32 0x7F800000#32
  let main_v1 : FVec F S4x4x1024x512 .f32 := broadcastInDim S4x4x1024x512 ![] bcast_S_S4x4x1024x512 main_cst
  let main_v2 : IVec S4x4x1024x512 1 := cmpf .olt main_v0 main_v1
  let main_c : IVec S_ 1 := constantI S_ 1 1#1
  let main_v3 : IVec S_ 1 := (fun x v => Host.reduce IntOp.andi x v reducesTo_S4x4x1024x512_S_d0_1_2_3 h_S_) main_v2 main_c
  let main_v4 : FVec F S4x4x8x1024x128 .f32 := Host.absf main_arg1
  let main_cst_0 : FVec F S_ .f32 := constant S_ .f32 0x7F800000#32
  let main_v5 : FVec F S4x4x8x1024x128 .f32 := broadcastInDim S4x4x8x1024x128 ![] bcast_S_S4x4x8x1024x128 main_cst_0
  let main_v6 : IVec S4x4x8x1024x128 1 := cmpf .olt main_v4 main_v5
  let main_c_1 : IVec S_ 1 := constantI S_ 1 1#1
  let main_v7 : IVec S_ 1 := (fun x v => Host.reduce IntOp.andi x v reducesTo_S4x4x8x1024x128_S_d0_1_2_3_4 h_S_) main_v6 main_c_1
  let main_v8 : IVec S_ 1 := andi main_v3 main_v7
  main_v8
-- ==== Kernel.lean ====
abbrev S4x4x1024x512 : Shape := ⟨4, ![4, 4, 1024, 512]⟩
abbrev S4x4x8x1024x128 : Shape := ⟨5, ![4, 4, 8, 1024, 128]⟩
abbrev S4x4x1024x8x64 : Shape := ⟨5, ![4, 4, 1024, 8, 64]⟩
abbrev S4x4x8x1024x64 : Shape := ⟨5, ![4, 4, 8, 1024, 64]⟩
abbrev S4x4x1024x8x1024 : Shape := ⟨5, ![4, 4, 1024, 8, 1024]⟩
abbrev S1x1x8x1024x64 : Shape := ⟨5, ![1, 1, 8, 1024, 64]⟩
abbrev S1x1x8x128x64 : Shape := ⟨5, ![1, 1, 8, 128, 64]⟩
abbrev S1x1x8x128x128 : Shape := ⟨5, ![1, 1, 8, 128, 128]⟩
abbrev S1x1x128x8x1024 : Shape := ⟨5, ![1, 1, 128, 8, 1024]⟩
abbrev S8x1024x64 : Shape := ⟨3, ![8, 1024, 64]⟩
abbrev S8x128x64 : Shape := ⟨3, ![8, 128, 64]⟩
abbrev S8x128x128 : Shape := ⟨3, ![8, 128, 128]⟩
abbrev S8x128 : Shape := ⟨2, ![8, 128]⟩
abbrev S8x128x1024 : Shape := ⟨3, ![8, 128, 1024]⟩
abbrev S8x128x1 : Shape := ⟨3, ![8, 128, 1]⟩
abbrev S128x8x1024 : Shape := ⟨3, ![128, 8, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4x4x1024x512, .f32⟩
  | .hbm, ⟨1, _⟩ => ⟨S4x4x8x1024x128, .f32⟩
  | .hbm, ⟨2, _⟩ => ⟨S4x4x1024x8x64, .f32⟩
  | .hbm, ⟨3, _⟩ => ⟨S4x4x8x1024x64, .f32⟩
  | .hbm, ⟨4, _⟩ => ⟨S4x4x1024x8x1024, .f32⟩
  | .local _ .vmem, ⟨0, _⟩ => ⟨S1x1x8x1024x64, .f32⟩
  | .local _ .vmem, ⟨1, _⟩ => ⟨S1x1x8x1024x64, .f32⟩
  | .local _ .vmem, ⟨2, _⟩ => ⟨S1x1x8x128x64, .f32⟩
  | .local _ .vmem, ⟨3, _⟩ => ⟨S1x1x8x128x64, .f32⟩
  | .local _ .vmem, ⟨4, _⟩ => ⟨S1x1x8x128x128, .f32⟩
  | .local _ .vmem, ⟨5, _⟩ => ⟨S1x1x8x128x128, .f32⟩
  | .local _ .vmem, ⟨6, _⟩ => ⟨S1x1x128x8x1024, .f32⟩
  | .local _ .vmem, ⟨7, _⟩ => ⟨S1x1x128x8x1024, .f32⟩
  | _, _ => ⟨S4x4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x8x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S4x4x1024x512_S4x4x1024x8x64 : S4x4x1024x512.ShapeCasts S4x4x1024x8x64
  transposes_S4x4x1024x8x64_S4x4x8x1024x64_0_1_3_2_4 : S4x4x1024x8x64.Transposes [0, 1, 3, 2, 4] S4x4x8x1024x64
  inb_S1x1x8x1024x64_S1x1x8x1024x64_0_0_0_0_0 : ∀ a, (![0, 0, 0, 0, 0] : Fin 5 → Nat) a + S1x1x8x1024x64.size a ≤ S1x1x8x1024x64.size a
  h_S1x1x8x1024x64 : 0 < S1x1x8x1024x64.numel
  shapeCasts_S1x1x8x1024x64_S8x1024x64 : S1x1x8x1024x64.ShapeCasts S8x1024x64
  bitsLt_bf16_f32 : FTy.bits .bf16 < FTy.bits .f32
  inb_S1x1x8x128x64_S1x1x8x128x64_0_0_0_0_0 : ∀ a, (![0, 0, 0, 0, 0] : Fin 5 → Nat) a + S1x1x8x128x64.size a ≤ S1x1x8x128x64.size a
  h_S1x1x8x128x64 : 0 < S1x1x8x128x64.numel
  shapeCasts_S1x1x8x128x64_S8x128x64 : S1x1x8x128x64.ShapeCasts S8x128x64
  inb_S1x1x8x128x128_S1x1x8x128x128_0_0_0_0_0 : ∀ a, (![0, 0, 0, 0, 0] : Fin 5 → Nat) a + S1x1x8x128x128.size a ≤ S1x1x8x128x128.size a
  h_S1x1x8x128x128 : 0 < S1x1x8x128x128.numel
  shapeCasts_S1x1x8x128x128_S8x128x128 : S1x1x8x128x128.ShapeCasts S8x128x128
  slices_S8x128x128_o0_0_0_S8x128x64 : S8x128x128.Slices ![0, 0, 0] S8x128x64
  slices_S8x128x128_o0_0_64_S8x128x64 : S8x128x128.Slices ![0, 0, 64] S8x128x64
  reduces_S8x128x64_S8x128 : S8x128x64.Reduces [2] S8x128
  shapeCasts_S8x128_S8x128x1 : S8x128.ShapeCasts S8x128x1
  broadcasts_S8x128x1_S8x128x1024 : S8x128x1.Broadcasts S8x128x1024
  reduces_S8x128x1024_S8x128 : S8x128x1024.Reduces [2] S8x128
  transposes_S8x128x1024_p1_0_2_S128x8x1024 : S8x128x1024.Transposes [1, 0, 2] S128x8x1024
  inb_S1x1x128x8x1024_S1x1x128x8x1024_0_0_0_0_0 : ∀ a, (![0, 0, 0, 0, 0] : Fin 5 → Nat) a + S1x1x128x8x1024.size a ≤ S1x1x128x8x1024.size a
  h_S1x1x128x8x1024 : 0 < S1x1x128x8x1024.numel
  shapeCasts_S1x1x128x8x1024_S128x8x1024 : S1x1x128x8x1024.ShapeCasts S128x8x1024
  shapeCasts_S128x8x1024_S1x1x128x8x1024 : S128x8x1024.ShapeCasts S1x1x128x8x1024
  dot_S8x128x64_S8x1024x64_S8x128x1024_2_2_1_1_0_0_wf : DotDims.WF S8x128x64 S8x1024x64 S8x128x1024 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x8x1024x64.size a ≤ S4x4x8x1024x64.size a
  hwx0_0 : ∀ i : grid0.Coords, EltTy.bits .f32 = 32 ∨ (Rect.block (s := S4x4x8x1024x64) S1x1x8x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8x128x64.size a ≤ S4x4x8x1024x64.size a
  hwx0_1 : ∀ i : grid0.Coords, EltTy.bits .f32 = 32 ∨ (Rect.block (s := S4x4x8x1024x64) S1x1x8x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8x128x128.size a ≤ S4x4x8x1024x128.size a
  hwx0_2 : ∀ i : grid0.Coords, EltTy.bits .f32 = 32 ∨ (Rect.block (s := S4x4x8x1024x128) S1x1x8x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x8x1024.size a ≤ S4x4x1024x8x1024.size a
  hwx0_3 : ∀ i : grid0.Coords, EltTy.bits .f32 = 32 ∨ (Rect.block (s := S4x4x1024x8x1024) S1x1x128x8x1024.size (cc0_transform_3 i) (hinb0_3 i)).WholeWords (EltTy.packing .f32)

variable [Facts₀]

def dot_S8x128x64_S8x1024x64_S8x128x1024_2_2_1_1_0_0 : DotDims S8x128x64 S8x1024x64 S8x128x1024 where
  lhsContracting := [2]
  rhsContracting := [2]
  lhsNonContracting := [1]
  rhsNonContracting := [1]
  lhsBatch := [0]
  rhsBatch := [0]
  wf := dot_S8x128x64_S8x1024x64_S8x128x1024_2_2_1_1_0_0_wf

abbrev win0_0 : Pipeline.Window sig grid0 :=
  Pipeline.Window.ofSpec (Memref.whole main_v1) S1x1x8x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x8x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1x8x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x128x8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4x1024x512 : Shape := ⟨4, ![4, 4, 1024, 512]⟩
abbrev S4x4x8x1024x128 : Shape := ⟨5, ![4, 4, 8, 1024, 128]⟩
abbrev S4x4x1024x8x64 : Shape := ⟨5, ![4, 4, 1024, 8, 64]⟩
abbrev S4x4x8x1024x64 : Shape := ⟨5, ![4, 4, 8, 1024, 64]⟩
abbrev S_ : Shape := ⟨0, ![]⟩
abbrev S4x4x8x1024 : Shape := ⟨4, ![4, 4, 8, 1024]⟩
abbrev S4x4x8x1024x1024 : Shape := ⟨5, ![4, 4, 8, 1024, 1024]⟩
abbrev S4x4x8x1024x1 : Shape := ⟨5, ![4, 4, 8, 1024, 1]⟩
abbrev S4x4x1024x8x1024 : Shape := ⟨5, ![4, 4, 1024, 8, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x4x1024x512, .f32⟩
  | .hbm, ⟨1, _⟩ => ⟨S4x4x8x1024x128, .f32⟩
  | .hbm, ⟨2, _⟩ => ⟨S4x4x1024x8x64, .f32⟩
  | .hbm, ⟨3, _⟩ => ⟨S4x4x8x1024x64, .f32⟩
  | .hbm, ⟨4, _⟩ => ⟨S4x4x8x1024x64, .f32⟩
  | .hbm, ⟨5, _⟩ => ⟨S4x4x8x1024x64, .f32⟩
  | .hbm, ⟨6, _⟩ => ⟨S4x4x8x1024x64, .f32⟩
  | .hbm, ⟨7, _⟩ => ⟨S_, .f32⟩
  | .hbm, ⟨8, _⟩ => ⟨S4x4x8x1024, .f32⟩
  | .hbm, ⟨9, _⟩ => ⟨S4x4x8x1024x1024, .f32⟩
  | .hbm, ⟨10, _⟩ => ⟨S4x4x8x1024x1, .f32⟩
  | .hbm, ⟨11, _⟩ => ⟨S4x4x8x1024x1024, .f32⟩
  | .hbm, ⟨12, _⟩ => ⟨S4x4x8x1024x1024, .f32⟩
  | .hbm, ⟨13, _⟩ => ⟨S_, .f32⟩
  | .hbm, ⟨14, _⟩ => ⟨S4x4x8x1024, .f32⟩
  | .hbm, ⟨15, _⟩ => ⟨S_, .f32⟩
  | .hbm, ⟨16, _⟩ => ⟨S4x4x8x1024, .f32⟩
  | .hbm, ⟨17, _⟩ => ⟨S4x4x8x1024, .f32⟩
  | .hbm, ⟨18, _⟩ => ⟨S4x4x8x1024x1, .f32⟩
  | .hbm, ⟨19, _⟩ => ⟨S4x4x8x1024x1024, .f32⟩
  | .hbm, ⟨20, _⟩ => ⟨S4x4x8x1024x1024, .f32⟩
  | .hbm, ⟨21, _⟩ => ⟨S4x4x8x1024x1024, .f32⟩
  | .hbm, ⟨22, _⟩ => ⟨S_, .f32⟩
  | .hbm, ⟨23, _⟩ => ⟨S4x4x8x1024, .f32⟩
  | .hbm, ⟨24, _⟩ => ⟨S4x4x8x1024x1, .f32⟩
  | .hbm, ⟨25, _⟩ => ⟨S4x4x8x1024x1024, .f32⟩
  | .hbm, ⟨26, _⟩ => ⟨S4x4x8x1024x1024, .f32⟩
  | .hbm, ⟨27, _⟩ => ⟨S4x4x1024x8x1024, .f32⟩
  | _, _ => ⟨S4x4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  shapeCasts_S4x4x1024x512_S4x4x1024x8x64 : S4x4x1024x512.ShapeCasts S4x4x1024x8x64
  transposes_S4x4x1024x8x64_S4x4x8x1024x64_0_1_3_2_4 : S4x4x1024x8x64.Transposes [0, 1, 3, 2, 4] S4x4x8x1024x64
  slices_S4x4x8x1024x128_S4x4x8x1024x64_0_0_0_0_0 : S4x4x8x1024x128.Slices ![0, 0, 0, 0, 0] S4x4x8x1024x64
  slices_S4x4x8x1024x128_S4x4x8x1024x64_0_0_0_0_64 : S4x4x8x1024x128.Slices ![0, 0, 0, 0, 64] S4x4x8x1024x64
  reducesTo_S4x4x8x1024x64_S4x4x8x1024_d4 : S4x4x8x1024x64.ReducesTo [4] S4x4x8x1024
  h_S_ : 0 < S_.numel
  bcast_S4x4x8x1024_S4x4x8x1024x1_0_1_2_3 : S4x4x8x1024.BroadcastsInDim S4x4x8x1024x1 (![0, 1, 2, 3] : Fin 4 → Fin S4x4x8x1024x1.rank)
  bcast_S4x4x8x1024x1_S4x4x8x1024x1024_0_1_2_3_4 : S4x4x8x1024x1.BroadcastsInDim S4x4x8x1024x1024 (![0, 1, 2, 3, 4] : Fin 5 → Fin S4x4x8x1024x1024.rank)
  reducesTo_S4x4x8x1024x1024_S4x4x8x1024_d4 : S4x4x8x1024x1024.ReducesTo [4] S4x4x8x1024
  bcast_S_S4x4x8x1024 : S_.BroadcastsInDim S4x4x8x1024 (![] : Fin 0 → Fin S4x4x8x1024.rank)
  transposes_S4x4x8x1024x1024_S4x4x1024x8x1024_0_1_3_2_4 : S4x4x8x1024x1024.Transposes [0, 1, 3, 2, 4] S4x4x1024x8x1024
  dot_S4x4x8x1024x64_S4x4x8x1024x64_S4x4x8x1024x1024_4_4_3_3_012_012_wf : DotDims.WF S4x4x8x1024x64 S4x4x8x1024x64 S4x4x8x1024x1024 [4] [4] [3] [3] [0, 1, 2] [0, 1, 2]

variable [Facts₀]

def dot_S4x4x8x1024x64_S4x4x8x1024x64_S4x4x8x1024x1024_4_4_3_3_012_012 : DotDims S4x4x8x1024x64 S4x4x8x1024x64 S4x4x8x1024x1024 where
  lhsContracting := [4]
  rhsContracting := [4]
  lhsNonContracting := [3]
  rhsNonContracting := [3]
  lhsBatch := [0, 1, 2]
  rhsBatch := [0, 1, 2]
  wf := dot_S4x4x8x1024x64_S4x4x8x1024x64_S4x4x8x1024x1024_4_4_3_3_012_012_wf

class Facts : Prop extends Facts₀ where

variable [Facts]
-- ==== Proof.KernelFrame.lean ====
/-
  The frame of the attention program, at any float instance: every weakly fair execution ends, nothing
  faults, and the two argument arrays end as they began.

  The program is two layout operations on the host (the features split into heads, the head axis moved
  before the row axis) and one grid of 4 · 4 · 8 points. Point (b, n, i) reads three blocks — all 1024 rows
  of pair (b, n)'s head-split features (the keys), rows 128·i … 128·i+127 of the same array (the queries), and
  the same rows of the attention vectors — and writes one block: the weights of those 128 query rows. The key
  and the query blocks are blocks of ONE array, so that array is lent to the two windows at complementary
  half shares; nothing ever writes it, and each half suffices to read.

  What a block of the result holds after its point is one function of the three blocks read there
  (`written`); the array of weights after the run is the entry contents overwritten block by block, which is
  what the later value argument reads.
-/
import proofs.«102214_j79688823210736_1_alg».proof.Proof.Gen.Kernel.Launch
import proofs.«102214_j79688823210736_1_alg».proof.Proof.Gen.Kernel.Skeleton
import proofs.«102214_j79688823210736_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the grid -/

/-- What each buffer of core `c` holds when the grid starts: the launch contents after the two layout operations. -/
abbrev entry (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the two layout operations and then the grid. -/
theorem upToGrid (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- Neither layout operation writes the features: the grid finds them as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Nor the attention vectors. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The blocks a point reads -/

/-- Window `w`'s block at point `t`, read off its array as the grid finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current buffer holds its block at every point, whether the point fetches it or not (the keys
    are fetched once per eight points: between fetches the block index does not move), for any proof data whose
    array is the entry contents and whose body leaves the block in place. -/

/-- The keys' buffer holds the keys' block. -/
theorem before_key {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The queries' buffer holds the queries' block. -/
theorem before_qry {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The attention vectors' buffer holds their block. -/
theorem before_att {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What a point writes -/

abbrev rKey : Rect S1x1x8x1024x64 := Rect.unit (s := S1x1x8x1024x64) ![0, 0, 0, 0, 0] S1x1x8x1024x64.size inb_S1x1x8x1024x64_S1x1x8x1024x64_0_0_0_0_0
abbrev rQry : Rect S1x1x8x128x64 := Rect.unit (s := S1x1x8x128x64) ![0, 0, 0, 0, 0] S1x1x8x128x64.size inb_S1x1x8x128x64_S1x1x8x128x64_0_0_0_0_0
abbrev rAtt : Rect S1x1x8x128x128 := Rect.unit (s := S1x1x8x128x128) ![0, 0, 0, 0, 0] S1x1x8x128x128.size inb_S1x1x8x128x128_S1x1x8x128x128_0_0_0_0_0
abbrev rOut : Rect S1x1x128x8x1024 := Rect.unit (s := S1x1x128x8x1024) ![0, 0, 0, 0, 0] S1x1x128x8x1024.size inb_S1x1x128x8x1024_S1x1x128x8x1024_0_0_0_0_0

/-- The result window's buffer after the body, from the three blocks read: its one store, of the body's
    arithmetic on the three loads, over the whole buffer. -/
def written (x0 : Vec F S1x1x8x1024x64 .f32) (x1 : Vec F S1x1x8x128x64 .f32) (x2 : Vec F S1x1x8x128x128 .f32) : Vec F S1x1x128x8x1024 .f32 :=
  View.canon [⟨rOut, k0_pay1 (View.ld x0 rKey) (View.ld x1 rQry) (View.ld x2 rAtt)⟩]

/-- The one store covers the buffer. -/
theorem covers (p0 : Vec F S1x1x128x8x1024 .f32) (y : S1x1x128x8x1024.Idx) :
    ∃ pc ∈ ([⟨rOut, p0⟩] : List (View.Piece (Elt F) S1x1x128x8x1024 .f32)), y ∈ pc.1.set :=
  View.cover_of_tiled [⟨rOut, p0⟩] S1x1x128x8x1024.size (by rfl) y

/-! ## The body -/

set_option maxHeartbeats 1000000 in
/-- The body on whole buffers, the three inputs' at contents `x0 x1 x2` and the result's at anything, runs to
    the continuation holding the inputs' as they were and the result's at `written x0 x1 x2`. -/
theorem bodyTriple (c : Dev nD) (E : Set ℕ) (i : grid0.Coords)
    (arg3 : Memref sig .tc .vmem S1x1x8x1024x64 .f32) (harg3 : arg3.IsWhole) (arg4 : Memref sig .tc .vmem S1x1x8x128x64 .f32) (harg4 : arg4.IsWhole)
    (arg5 : Memref sig .tc .vmem S1x1x8x128x128 .f32) (harg5 : arg5.IsWhole) (arg6 : Memref sig .tc .vmem S1x1x128x8x1024 .f32) (harg6 : arg6.IsWhole)
    (x0 : Vec F S1x1x8x1024x64 .f32) (x1 : Vec F S1x1x8x128x64 .f32) (x2 : Vec F S1x1x8x128x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (written x0 x1 x2)) -∗ K ⟨⟩))
      ⊢ wp frame (wpE (defs₀ (F := F)) Variants.none c none) E (cc0__gat_kernel i arg3 harg3 arg4 harg4 arg5 harg5 arg6 harg6) K := by
  simp only [cc0__gat_kernel_eq_skeleton]; unfold cc0__gat_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers _)

/-! ## The proof data -/

/-- Core `c`'s proof data: the arrays as the grid finds them; after the body at point `t` each input's buffer at its
    block and the result's at `written` of the three blocks; between points only the core's scoped buffers that no
    window stages (there are none); the head-split features lent to the keys' window at the left half share and to
    the queries' at the right half, the attention vectors at the full share; nothing owed. -/
def proofData (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => written (blockAt m c 0 t) (blockAt m c 1 t) (blockAt m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

/-- The one grid's proof data, on every core. -/
abbrev allData (_ : Fin 1) (c : Dev nD) : Dat τ (Elt F) Unit ℕ (UR sig nD τ) ℕ cfg0 c := proofData m c

theorem A_eq (c : Dev nD) (w : Fin cfg0.W) : (proofData m c).A w = entry m c (Pipeline.arrRef spec0 w) := by
  dsimp only [proofData]

theorem after_key (c : Dev nD) (t : Fin cfg0.N) : (proofData m c).after 0 t = blockAt m c 0 t := by dsimp only [proofData]
theorem after_qry (c : Dev nD) (t : Fin cfg0.N) : (proofData m c).after 1 t = blockAt m c 1 t := by dsimp only [proofData]
theorem after_att (c : Dev nD) (t : Fin cfg0.N) : (proofData m c).after 2 t = blockAt m c 2 t := by dsimp only [proofData]
theorem after_out (c : Dev nD) (t : Fin cfg0.N) :
    (proofData m c).after 3 t = written (blockAt m c 0 t) (blockAt m c 1 t) (blockAt m c 2 t) := by dsimp only [proofData]

theorem found_key (c : Dev nD) (t : Fin cfg0.N) (d) : (proofData m c).before 0 t d = blockAt m c 0 t :=
  before_key m (proofData m c) (A_eq m c 0) (after_key m c) t d
theorem found_qry (c : Dev nD) (t : Fin cfg0.N) (d) : (proofData m c).before 1 t d = blockAt m c 1 t :=
  before_qry m (proofData m c) (A_eq m c 1) (after_qry m c) t d
theorem found_att (c : Dev nD) (t : Fin cfg0.N) (d) : (proofData m c).before 2 t d = blockAt m c 2 t :=
  before_att m (proofData m c) (A_eq m c 2) (after_att m c) t d

/-! ## The body at a point -/

/-- What the body is called with at point `t`, the windows one by one, -/
def bodyPre (c : Dev nD) (t : Fin cfg0.N) : sProp 𝕄 :=
  iprop((proofData m c).Φ t.castSucc ∗ (proofData m c).owesAt () t.castSucc
    ∗ (∃ d, owns (c : Thread nD τ) (st0_0 t) fullShare ((proofData m c).before 0 t d))
    ∗ (∃ d, owns (c : Thread nD τ) (st0_1 t) fullShare ((proofData m c).before 1 t d))
    ∗ (∃ d, owns (c : Thread nD τ) (st0_2 t) fullShare ((proofData m c).before 2 t d))
    ∗ (∃ d, owns (c : Thread nD τ) (st0_3 t) fullShare ((proofData m c).before 3 t d)))

/-- and what it returns. -/
def bodyPost (c : Dev nD) (t : Fin cfg0.N) : sProp 𝕄 :=
  iprop((proofData m c).Φ t.succ ∗ (proofData m c).owesAt () t.succ
    ∗ owns (c : Thread nD τ) (st0_0 t) fullShare ((proofData m c).after 0 t)
    ∗ owns (c : Thread nD τ) (st0_1 t) fullShare ((proofData m c).after 1 t)
    ∗ owns (c : Thread nD τ) (st0_2 t) fullShare ((proofData m c).after 2 t)
    ∗ owns (c : Thread nD τ) (st0_3 t) fullShare ((proofData m c).after 3 t))

/-- The body at any point: the inputs' buffers hold their blocks, so `bodyTriple` applies; what is held between
    points passes through unread. -/
theorem bodyAtPoint (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_key, found_qry, found_att]
  rw [show (proofData m c).Φ t.succ = (proofData m c).Φ t.castSucc from rfl,
    show (proofData m c).owesAt () t.succ = (proofData m c).owesAt () t.castSucc from rfl,
    after_key, after_qry, after_att, after_out]
  iintro ⟨HΦ, Ho, ⟨%d0, H0⟩, ⟨%d1, H1⟩, ⟨%d2, H2⟩, ⟨%d3, H3⟩⟩
  iapply (bodyTriple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem bodyEverywhere (c : Dev nD) : BodyObligation (proofData (F := F) m c) (defs₀ (F := F)) Variants.none () Set.univ := fun t => by
  rw [bigSep_W0, bigSep_W0]
  exact bodyAtPoint m c t

/-! ## Lending the arrays -/

theorem share_key (c : Dev nD) : (proofData m c).share 0 = fullShare.left := rfl
theorem share_qry (c : Dev nD) : (proofData m c).share 1 = fullShare.right := rfl
theorem share_att (c : Dev nD) : (proofData m c).share 2 = fullShare := rfl
theorem share_out (c : Dev nD) : (proofData m c).share 3 = fullShare := rfl

/-- Each window's array, as the proof data holds it at entry, is its whole buffer at the window's share. -/
theorem held_eq (c : Dev nD) (w : Fin 4) :
    ((cfg0.win w).arr.view.loc (c.tc : Thread nD τ) ↦[(cfg0.win w).arr.view.set]{(proofData m c).share w} (proofData m c).arrAt w 0 : sProp 𝕄)
      = (((c.tc : Thread nD τ).loc (Pipeline.arrRef spec0 w)) ↦{(proofData m c).share w} entry m c (Pipeline.arrRef spec0 w)) := by
  rw [(arr_whole0 w).set_eq_univ]; rfl

/-- The buffers behind the four windows' arrays are three: the head-split features, the attention vectors, the weights. -/
theorem buffers_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v1) ↦{fullShare} V main_v1) ∗ (((c : Thread nD τ).loc main_arg1) ↦{fullShare} V main_arg1)
          ∗ (((c : Thread nD τ).loc main_v2) ↦{fullShare} V main_v2)) := by
  unfold Pipeline.arrBufs
  exact bigSep_eq_bigSepL_of_eq [main_v1, main_arg1, main_v2] (by decide) (by decide) _

/-- Between points the proof data hold the scoped buffers no window stages, and nothing else. -/
theorem between_eq (c : Dev nD) (t : Fin (cfg0.N + 1)) :
    (proofData m c).Φ t = Pipeline.scopedRest (Ix := Unit) (Name := ℕ) (U := UR sig nD τ) (Lvl := ℕ) (Val := Elt F) spec0 c := rfl

/-- The three buffers behind the four windows, each whole at the full share at the entry contents, are the proof
    data's arrays at entry: the head-split features' full share is its left half and its right half, one for the
    keys' window and one for the queries'. -/
theorem lend (c : Dev nD) :
    (Pipeline.arrBufs (Ix := Unit) (Name := ℕ) (U := UR sig nD τ) (Lvl := ℕ) spec0 c (entry m c) : sProp 𝕄)
      ⊢ (proofData m c).arrays ((proofData m c).arrAt · 0) := by
  rw [buffers_eq]
  unfold Dat.arrays
  rw [bigSep_W0, held_eq m c 0, held_eq m c 1, held_eq m c 2, held_eq m c 3, share_key, share_qry, share_att, share_out]
  iintro ⟨Hx, Ha, Ho⟩
  ihave Hx2 := (pointsTo_share (PosShare.mem_left_op_right fullShare)).1 $$ Hx
  icases Hx2 with ⟨Hl, Hr⟩
  isplitl [Hl]; · iexact Hl
  isplitl [Hr]; · iexact Hr
  isplitl [Ha]; · iexact Ha
  iexact Ho

/-! ## The run and the frame -/

set_option backward.isDefEq.respectTransparency.types false in
/-- From any memory with zero counters every weakly fair execution of the program ends, and every final state has
    each window's array at what the write-backs leave of the entry contents and every other unscoped buffer as the
    grid found it. -/
theorem run : θ_run defs (onTc (τ := τ) (main (F := F))) (s₀ m ρ) (Pipeline.FramePost cfgs (allData m) 0 (entry m)) :=
  Pipeline.θ_run_region_noSem_shared cfgs (allData m) () cellOf_inj (0 : Fin 1) winFacts₀0 emb₁ defs₀ Variants.none m ρ main
    (hbody := fun c => (bodyEverywhere m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := entry m) (hmain := upToGrid m Variants.none) (hsplit := lend m)
    (X := fun _ => iprop(emp)) (Y := fun _ => iprop(emp))
    (Z := fun c => Pipeline.unscopedRest (Ix := Unit) (Name := ℕ) (U := UR sig nD τ) (Lvl := ℕ) spec0 c (entry m c))
    (hX := fun c => by iintro H; isplitr; · iempintro
                       iexact H)
    (hin := fun c => by rw [show (allData m 0 c).Φ 0 = _ from between_eq m c 0]; iintro ⟨-, H⟩; iexact H)
    (hout := fun c => by rw [show (allData m 0 c).Φ (Fin.last (cfgs 0).N) = _ from between_eq m c _]; iintro H; isplitr; · iempintro
                         iexact H)
    (QY := fun c s => ∀ b ∈ Pipeline.restRefs sig spec0, s.mem ((c.tc : Thread nD τ).loc b) = entry m c b)
    (hY := fun c s' => by
      iintro ⟨-, HU, HSI⟩
      unfold Pipeline.unscopedRest
      imodintro
      iapply (pointsTo_read_all (Pipeline.restRefs sig spec0) (fun b => (c.tc : Thread nD τ).loc b) (entry m c) s')
      isplitl [HU] <;> iassumption)
    (hQ := fun s h c => ⟨(h c).1, (h c).2⟩)

/-- info: 'Cert.Kernel.Hand.run' depends on axioms: [propext, Classical.choice, Quot.sound] -/
#guard_msgs in #print axioms run

/-- The features are no window's array: they bypass the grid. -/
theorem arg0_bypasses : main_arg0 ∈ Pipeline.restRefs sig spec0 :=
  Pipeline.mem_restRefs_of main_arg0 rfl (by decide)

/-- THE FRAME: the program runs to the end and its two argument arrays end as they began — the features because
    nothing stages them and no layout operation writes them, the attention vectors because an input window's array
    is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_bypasses).trans (entry_main_arg0 m c),
      ((h c).1 2).trans (((proofData m c).arrAt_in 2 rfl _).trans ((A_eq m c 2).trans (entry_main_arg1 m c)))⟩) (run m ρ)

end Cert.Kernel.Hand

end
-- ==== Proof.KernelIdealFrame.lean ====
/-
  The frame of the attention program, at any float instance: every weakly fair execution ends, nothing
  faults, and the two argument arrays end as they began.

  The program is two layout operations on the host (the features split into heads, the head axis moved
  before the row axis) and one grid of 4 · 4 · 8 points. Point (b, n, i) reads three blocks — all 1024 rows
  of pair (b, n)'s head-split features (the keys), rows 128·i … 128·i+127 of the same array (the queries), and
  the same rows of the attention vectors — and writes one block: the weights of those 128 query rows. The key
  and the query blocks are blocks of ONE array, so that array is lent to the two windows at complementary
  half shares; nothing ever writes it, and each half suffices to read.

  What a block of the result holds after its point is one function of the three blocks read there
  (`written`); the array of weights after the run is the entry contents overwritten block by block, which is
  what the later value argument reads.
-/
import proofs.«102214_j79688823210736_1_alg».proof.Proof.Gen.KernelIdeal.Launch
import proofs.«102214_j79688823210736_1_alg».proof.Proof.Gen.KernelIdeal.Skeleton
import proofs.«102214_j79688823210736_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the grid -/

/-- What each buffer of core `c` holds when the grid starts: the launch contents after the two layout operations. -/
abbrev entry (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the two layout operations and then the grid. -/
theorem upToGrid (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- Neither layout operation writes the features: the grid finds them as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Nor the attention vectors. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The blocks a point reads -/

/-- Window `w`'s block at point `t`, read off its array as the grid finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current buffer holds its block at every point, whether the point fetches it or not (the keys
    are fetched once per eight points: between fetches the block index does not move), for any proof data whose
    array is the entry contents and whose body leaves the block in place. -/

/-- The keys' buffer holds the keys' block. -/
theorem before_key {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The queries' buffer holds the queries' block. -/
theorem before_qry {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The attention vectors' buffer holds their block. -/
theorem before_att {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What a point writes -/

abbrev rKey : Rect S1x1x8x1024x64 := Rect.unit (s := S1x1x8x1024x64) ![0, 0, 0, 0, 0] S1x1x8x1024x64.size inb_S1x1x8x1024x64_S1x1x8x1024x64_0_0_0_0_0
abbrev rQry : Rect S1x1x8x128x64 := Rect.unit (s := S1x1x8x128x64) ![0, 0, 0, 0, 0] S1x1x8x128x64.size inb_S1x1x8x128x64_S1x1x8x128x64_0_0_0_0_0
abbrev rAtt : Rect S1x1x8x128x128 := Rect.unit (s := S1x1x8x128x128) ![0, 0, 0, 0, 0] S1x1x8x128x128.size inb_S1x1x8x128x128_S1x1x8x128x128_0_0_0_0_0
abbrev rOut : Rect S1x1x128x8x1024 := Rect.unit (s := S1x1x128x8x1024) ![0, 0, 0, 0, 0] S1x1x128x8x1024.size inb_S1x1x128x8x1024_S1x1x128x8x1024_0_0_0_0_0

/-- The result window's buffer after the body, from the three blocks read: its one store, of the body's
    arithmetic on the three loads, over the whole buffer. -/
def written (x0 : Vec F S1x1x8x1024x64 .f32) (x1 : Vec F S1x1x8x128x64 .f32) (x2 : Vec F S1x1x8x128x128 .f32) : Vec F S1x1x128x8x1024 .f32 :=
  View.canon [⟨rOut, k0_pay1 (View.ld x0 rKey) (View.ld x1 rQry) (View.ld x2 rAtt)⟩]

/-- The one store covers the buffer. -/
theorem covers (p0 : Vec F S1x1x128x8x1024 .f32) (y : S1x1x128x8x1024.Idx) :
    ∃ pc ∈ ([⟨rOut, p0⟩] : List (View.Piece (Elt F) S1x1x128x8x1024 .f32)), y ∈ pc.1.set :=
  View.cover_of_tiled [⟨rOut, p0⟩] S1x1x128x8x1024.size (by rfl) y

/-! ## The body -/

set_option maxHeartbeats 1000000 in
/-- The body on whole buffers, the three inputs' at contents `x0 x1 x2` and the result's at anything, runs to
    the continuation holding the inputs' as they were and the result's at `written x0 x1 x2`. -/
theorem bodyTriple (c : Dev nD) (E : Set ℕ) (i : grid0.Coords)
    (arg3 : Memref sig .tc .vmem S1x1x8x1024x64 .f32) (harg3 : arg3.IsWhole) (arg4 : Memref sig .tc .vmem S1x1x8x128x64 .f32) (harg4 : arg4.IsWhole)
    (arg5 : Memref sig .tc .vmem S1x1x8x128x128 .f32) (harg5 : arg5.IsWhole) (arg6 : Memref sig .tc .vmem S1x1x128x8x1024 .f32) (harg6 : arg6.IsWhole)
    (x0 : Vec F S1x1x8x1024x64 .f32) (x1 : Vec F S1x1x8x128x64 .f32) (x2 : Vec F S1x1x8x128x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (written x0 x1 x2)) -∗ K ⟨⟩))
      ⊢ wp frame (wpE (defs₀ (F := F)) Variants.none c none) E (cc0__gat_kernel i arg3 harg3 arg4 harg4 arg5 harg5 arg6 harg6) K := by
  simp only [cc0__gat_kernel_eq_skeleton]; unfold cc0__gat_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers _)

/-! ## The proof data -/

/-- Core `c`'s proof data: the arrays as the grid finds them; after the body at point `t` each input's buffer at its
    block and the result's at `written` of the three blocks; between points only the core's scoped buffers that no
    window stages (there are none); the head-split features lent to the keys' window at the left half share and to
    the queries' at the right half, the attention vectors at the full share; nothing owed. -/
def proofData (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => written (blockAt m c 0 t) (blockAt m c 1 t) (blockAt m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

/-- The one grid's proof data, on every core. -/
abbrev allData (_ : Fin 1) (c : Dev nD) : Dat τ (Elt F) Unit ℕ (UR sig nD τ) ℕ cfg0 c := proofData m c

theorem A_eq (c : Dev nD) (w : Fin cfg0.W) : (proofData m c).A w = entry m c (Pipeline.arrRef spec0 w) := by
  dsimp only [proofData]

theorem after_key (c : Dev nD) (t : Fin cfg0.N) : (proofData m c).after 0 t = blockAt m c 0 t := by dsimp only [proofData]
theorem after_qry (c : Dev nD) (t : Fin cfg0.N) : (proofData m c).after 1 t = blockAt m c 1 t := by dsimp only [proofData]
theorem after_att (c : Dev nD) (t : Fin cfg0.N) : (proofData m c).after 2 t = blockAt m c 2 t := by dsimp only [proofData]
theorem after_out (c : Dev nD) (t : Fin cfg0.N) :
    (proofData m c).after 3 t = written (blockAt m c 0 t) (blockAt m c 1 t) (blockAt m c 2 t) := by dsimp only [proofData]

theorem found_key (c : Dev nD) (t : Fin cfg0.N) (d) : (proofData m c).before 0 t d = blockAt m c 0 t :=
  before_key m (proofData m c) (A_eq m c 0) (after_key m c) t d
theorem found_qry (c : Dev nD) (t : Fin cfg0.N) (d) : (proofData m c).before 1 t d = blockAt m c 1 t :=
  before_qry m (proofData m c) (A_eq m c 1) (after_qry m c) t d
theorem found_att (c : Dev nD) (t : Fin cfg0.N) (d) : (proofData m c).before 2 t d = blockAt m c 2 t :=
  before_att m (proofData m c) (A_eq m c 2) (after_att m c) t d

/-! ## The body at a point -/

/-- What the body is called with at point `t`, the windows one by one, -/
def bodyPre (c : Dev nD) (t : Fin cfg0.N) : sProp 𝕄 :=
  iprop((proofData m c).Φ t.castSucc ∗ (proofData m c).owesAt () t.castSucc
    ∗ (∃ d, owns (c : Thread nD τ) (st0_0 t) fullShare ((proofData m c).before 0 t d))
    ∗ (∃ d, owns (c : Thread nD τ) (st0_1 t) fullShare ((proofData m c).before 1 t d))
    ∗ (∃ d, owns (c : Thread nD τ) (st0_2 t) fullShare ((proofData m c).before 2 t d))
    ∗ (∃ d, owns (c : Thread nD τ) (st0_3 t) fullShare ((proofData m c).before 3 t d)))

/-- and what it returns. -/
def bodyPost (c : Dev nD) (t : Fin cfg0.N) : sProp 𝕄 :=
  iprop((proofData m c).Φ t.succ ∗ (proofData m c).owesAt () t.succ
    ∗ owns (c : Thread nD τ) (st0_0 t) fullShare ((proofData m c).after 0 t)
    ∗ owns (c : Thread nD τ) (st0_1 t) fullShare ((proofData m c).after 1 t)
    ∗ owns (c : Thread nD τ) (st0_2 t) fullShare ((proofData m c).after 2 t)
    ∗ owns (c : Thread nD τ) (st0_3 t) fullShare ((proofData m c).after 3 t))

/-- The body at any point: the inputs' buffers hold their blocks, so `bodyTriple` applies; what is held between
    points passes through unread. -/
theorem bodyAtPoint (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_key, found_qry, found_att]
  rw [show (proofData m c).Φ t.succ = (proofData m c).Φ t.castSucc from rfl,
    show (proofData m c).owesAt () t.succ = (proofData m c).owesAt () t.castSucc from rfl,
    after_key, after_qry, after_att, after_out]
  iintro ⟨HΦ, Ho, ⟨%d0, H0⟩, ⟨%d1, H1⟩, ⟨%d2, H2⟩, ⟨%d3, H3⟩⟩
  iapply (bodyTriple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem bodyEverywhere (c : Dev nD) : BodyObligation (proofData (F := F) m c) (defs₀ (F := F)) Variants.none () Set.univ := fun t => by
  rw [bigSep_W0, bigSep_W0]
  exact bodyAtPoint m c t

/-! ## Lending the arrays -/

theorem share_key (c : Dev nD) : (proofData m c).share 0 = fullShare.left := rfl
theorem share_qry (c : Dev nD) : (proofData m c).share 1 = fullShare.right := rfl
theorem share_att (c : Dev nD) : (proofData m c).share 2 = fullShare := rfl
theorem share_out (c : Dev nD) : (proofData m c).share 3 = fullShare := rfl

/-- Each window's array, as the proof data holds it at entry, is its whole buffer at the window's share. -/
theorem held_eq (c : Dev nD) (w : Fin 4) :
    ((cfg0.win w).arr.view.loc (c.tc : Thread nD τ) ↦[(cfg0.win w).arr.view.set]{(proofData m c).share w} (proofData m c).arrAt w 0 : sProp 𝕄)
      = (((c.tc : Thread nD τ).loc (Pipeline.arrRef spec0 w)) ↦{(proofData m c).share w} entry m c (Pipeline.arrRef spec0 w)) := by
  rw [(arr_whole0 w).set_eq_univ]; rfl

/-- The buffers behind the four windows' arrays are three: the head-split features, the attention vectors, the weights. -/
theorem buffers_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v1) ↦{fullShare} V main_v1) ∗ (((c : Thread nD τ).loc main_arg1) ↦{fullShare} V main_arg1)
          ∗ (((c : Thread nD τ).loc main_v2) ↦{fullShare} V main_v2)) := by
  unfold Pipeline.arrBufs
  exact bigSep_eq_bigSepL_of_eq [main_v1, main_arg1, main_v2] (by decide) (by decide) _

/-- Between points the proof data hold the scoped buffers no window stages, and nothing else. -/
theorem between_eq (c : Dev nD) (t : Fin (cfg0.N + 1)) :
    (proofData m c).Φ t = Pipeline.scopedRest (Ix := Unit) (Name := ℕ) (U := UR sig nD τ) (Lvl := ℕ) (Val := Elt F) spec0 c := rfl

/-- The three buffers behind the four windows, each whole at the full share at the entry contents, are the proof
    data's arrays at entry: the head-split features' full share is its left half and its right half, one for the
    keys' window and one for the queries'. -/
theorem lend (c : Dev nD) :
    (Pipeline.arrBufs (Ix := Unit) (Name := ℕ) (U := UR sig nD τ) (Lvl := ℕ) spec0 c (entry m c) : sProp 𝕄)
      ⊢ (proofData m c).arrays ((proofData m c).arrAt · 0) := by
  rw [buffers_eq]
  unfold Dat.arrays
  rw [bigSep_W0, held_eq m c 0, held_eq m c 1, held_eq m c 2, held_eq m c 3, share_key, share_qry, share_att, share_out]
  iintro ⟨Hx, Ha, Ho⟩
  ihave Hx2 := (pointsTo_share (PosShare.mem_left_op_right fullShare)).1 $$ Hx
  icases Hx2 with ⟨Hl, Hr⟩
  isplitl [Hl]; · iexact Hl
  isplitl [Hr]; · iexact Hr
  isplitl [Ha]; · iexact Ha
  iexact Ho

/-! ## The run and the frame -/

set_option backward.isDefEq.respectTransparency.types false in
/-- From any memory with zero counters every weakly fair execution of the program ends, and every final state has
    each window's array at what the write-backs leave of the entry contents and every other unscoped buffer as the
    grid found it. -/
theorem run : θ_run defs (onTc (τ := τ) (main (F := F))) (s₀ m ρ) (Pipeline.FramePost cfgs (allData m) 0 (entry m)) :=
  Pipeline.θ_run_region_noSem_shared cfgs (allData m) () cellOf_inj (0 : Fin 1) winFacts₀0 emb₁ defs₀ Variants.none m ρ main
    (hbody := fun c => (bodyEverywhere m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := entry m) (hmain := upToGrid m Variants.none) (hsplit := lend m)
    (X := fun _ => iprop(emp)) (Y := fun _ => iprop(emp))
    (Z := fun c => Pipeline.unscopedRest (Ix := Unit) (Name := ℕ) (U := UR sig nD τ) (Lvl := ℕ) spec0 c (entry m c))
    (hX := fun c => by iintro H; isplitr; · iempintro
                       iexact H)
    (hin := fun c => by rw [show (allData m 0 c).Φ 0 = _ from between_eq m c 0]; iintro ⟨-, H⟩; iexact H)
    (hout := fun c => by rw [show (allData m 0 c).Φ (Fin.last (cfgs 0).N) = _ from between_eq m c _]; iintro H; isplitr; · iempintro
                         iexact H)
    (QY := fun c s => ∀ b ∈ Pipeline.restRefs sig spec0, s.mem ((c.tc : Thread nD τ).loc b) = entry m c b)
    (hY := fun c s' => by
      iintro ⟨-, HU, HSI⟩
      unfold Pipeline.unscopedRest
      imodintro
      iapply (pointsTo_read_all (Pipeline.restRefs sig spec0) (fun b => (c.tc : Thread nD τ).loc b) (entry m c) s')
      isplitl [HU] <;> iassumption)
    (hQ := fun s h c => ⟨(h c).1, (h c).2⟩)

/-- info: 'Cert.KernelIdeal.Hand.run' depends on axioms: [propext, Classical.choice, Quot.sound] -/
#guard_msgs in #print axioms run

/-- The features are no window's array: they bypass the grid. -/
theorem arg0_bypasses : main_arg0 ∈ Pipeline.restRefs sig spec0 :=
  Pipeline.mem_restRefs_of main_arg0 rfl (by decide)

/-- THE FRAME: the program runs to the end and its two argument arrays end as they began — the features because
    nothing stages them and no layout operation writes them, the attention vectors because an input window's array
    is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_bypasses).trans (entry_main_arg0 m c),
      ((h c).1 2).trans (((proofData m c).arrAt_in 2 rfl _).trans ((A_eq m c 2).trans (entry_main_arg1 m c)))⟩) (run m ρ)

end Cert.KernelIdeal.Hand

end
-- ==== Proof.Spec.lean ====
/-
  The attention weights, stated once over the extended reals.

  For a batch `b`, a neighbourhood `n`, a head `h` and a query row `i`, the score against key row `j` is
  `a₁ · x_i + a₂ · x_j`: the first half of the row's attention vector against the query row's own features,
  plus its second half against the key row's features (both sums over the 64 features of the head). The
  weights are the softmax of the scores over `j`: each score less the row's maximum (taken from `-∞`),
  exponentiated, divided by the sum of the exponentials over the row. The result is laid out with the head
  axis after the query axis.

  `G` states this of the whole arrays, `blockOut` of one block of 128 query rows against all 1024 key rows
  of one (batch, neighbourhood) pair; a block of `G` is `blockOut` of the corresponding blocks of the operands
  because a row's weights depend on the operands only through the row's scores (`rowSoftmax`).
-/
import Idealize.ShloMosaic.PureOps.Ideal
import Idealize.ShloMosaic.Lib.ValueIdx

noncomputable section

namespace Cert.Attn

open Idealize.ShloMosaic Idealize.ShloMosaic.ValueIdx

/-! ## Shapes -/

/-- The features, `[batch, neighbourhood, row, 8 · 64]`; -/
abbrev SX : Shape := ⟨4, ![4, 4, 1024, 512]⟩
/-- the same with the feature axis split into heads; -/
abbrev SMid : Shape := ⟨5, ![4, 4, 1024, 8, 64]⟩
/-- and with the head axis before the row axis. -/
abbrev SHeads : Shape := ⟨5, ![4, 4, 8, 1024, 64]⟩
/-- The attention vectors, `[batch, neighbourhood, head, row, 2 · 64]`. -/
abbrev SAw : Shape := ⟨5, ![4, 4, 8, 1024, 128]⟩
/-- The weights, `[batch, neighbourhood, query row, head, key row]`. -/
abbrev SOut : Shape := ⟨5, ![4, 4, 1024, 8, 1024]⟩
/-- One (batch, neighbourhood) pair's features, every row: the keys; -/
abbrev SKey : Shape := ⟨5, ![1, 1, 8, 1024, 64]⟩
/-- 128 rows of them: the queries; -/
abbrev SQry : Shape := ⟨5, ![1, 1, 8, 128, 64]⟩
/-- the same 128 rows' attention vectors; -/
abbrev SAtt : Shape := ⟨5, ![1, 1, 8, 128, 128]⟩
/-- and the weights of those 128 query rows. -/
abbrev SBlk : Shape := ⟨5, ![1, 1, 128, 8, 1024]⟩

theorem casts : SX.ShapeCasts SMid := by decide
theorem swaps : SMid.Transposes [0, 1, 3, 2, 4] SHeads := by decide

/-- The features split into heads, the head axis moved before the row axis. -/
def heads (x : SX.Idx → EReal) : SHeads.Idx → EReal :=
  transpose SHeads [0, 1, 3, 2, 4] (shapeCast SMid x casts) swaps

/-! ## One row's softmax -/

/-- `-∞`, as the word both programs print. -/
abbrev negInf : EReal := Ideal.ofBits .f32 0xFF800000#32

/-- A row's maximum, taken from `-∞` (and once more against `-∞`, as both programs do). -/
def rowMax (s : Fin 1024 → EReal) : EReal := max negInf (Finset.univ.fold max negInf s)

/-- The exponential of a score less the row's maximum. -/
def rowExp (s : Fin 1024 → EReal) (j : Fin 1024) : EReal := Ideal.exp (s j - rowMax s)

/-- The softmax of a row of scores, at `j`. -/
def rowSoftmax (s : Fin 1024 → EReal) (j : Fin 1024) : EReal :=
  Ideal.div (rowExp s j) (∑ j' : Fin 1024, rowExp s j')

theorem rowSoftmax_congr {s s' : Fin 1024 → EReal} (h : ∀ j, s j = s' j) : rowSoftmax s = rowSoftmax s' := by
  rw [show s = s' from funext h]

/-! ## The scores and the weights -/

/-- Feature `k` of the first half of an attention vector, -/
abbrev lo (k : Fin 64) : Fin 128 := ⟨k.val, by have := k.isLt; omega⟩
/-- and of its second half. -/
abbrev hi (k : Fin 64) : Fin 128 := ⟨64 + k.val, by have := k.isLt; omega⟩

/-- The score of query row `i` against key row `j`. -/
def score (xh : SHeads.Idx → EReal) (aw : SAw.Idx → EReal) (b n : Fin 4) (h : Fin 8) (i j : Fin 1024) : EReal :=
  (∑ k : Fin 64, xh (ix5 b n h i k) * aw (ix5 b n h i (lo k)))
    + ∑ k : Fin 64, aw (ix5 b n h i (hi k)) * xh (ix5 b n h j k)

/-- The weights, from the features split into heads and the attention vectors. -/
def G (xh : SHeads.Idx → EReal) (aw : SAw.Idx → EReal) : SOut.Idx → EReal :=
  fun o => rowSoftmax (fun j => score xh aw (o 0) (o 1) (o 3) (o 2) j) (o 4)

theorem G_ix (xh : SHeads.Idx → EReal) (aw : SAw.Idx → EReal) (b n : Fin 4) (i : Fin 1024) (h : Fin 8) (j : Fin 1024) :
    G xh aw (ix5 b n i h j) = rowSoftmax (fun j' => score xh aw b n h i j') j := rfl

/-- The same score from one block's operands: the keys, the 128 query rows, their attention vectors. -/
def blockScore (key : SKey.Idx → EReal) (qry : SQry.Idx → EReal) (att : SAtt.Idx → EReal)
    (h : Fin 8) (i : Fin 128) (j : Fin 1024) : EReal :=
  (∑ k : Fin 64, qry (ix5 (0 : Fin 1) (0 : Fin 1) h i k) * att (ix5 (0 : Fin 1) (0 : Fin 1) h i (lo k)))
    + ∑ k : Fin 64, att (ix5 (0 : Fin 1) (0 : Fin 1) h i (hi k)) * key (ix5 (0 : Fin 1) (0 : Fin 1) h j k)

/-- The block of weights of those 128 query rows. -/
def blockOut (key : SKey.Idx → EReal) (qry : SQry.Idx → EReal) (att : SAtt.Idx → EReal) : SBlk.Idx → EReal :=
  fun o => rowSoftmax (fun j => blockScore key qry att (o 3) (o 2) j) (o 4)

theorem blockOut_ix (key : SKey.Idx → EReal) (qry : SQry.Idx → EReal) (att : SAtt.Idx → EReal)
    (u v : Fin 1) (i : Fin 128) (h : Fin 8) (j : Fin 1024) :
    blockOut key qry att (ix5 u v i h j) = rowSoftmax (fun j' => blockScore key qry att h i j') j := rfl

end Cert.Attn

end
-- ==== Proof.LibRank3.lean ====
/-
  Rank-3 arrays read at an index given by coordinates — the layout operations and the reductions along the last
  axis that a kernel working on `[head, row, column]` blocks meets around a matrix product and a row softmax.
  Every size is a variable.

  * two unit axes dropped from the front of a `[1, 1, a, b, c]` array, or put back (`shapeCast_11abc_abc_apply`,
    `shapeCast_abc_11abc_apply`);
  * a reduced last axis kept as a unit axis, `[a, b] → [a, b, 1]`, and broadcast back along it,
    `[a, b, 1] → [a, b, c]` (`shapeCast_ab_ab1_apply`, `broadcastTo_ab1_abc_apply`);
  * a cut along the last axis from an offset (`slice3_axis2_apply`);
  * the first two axes swapped (`transpose_ix3_102_apply`);
  * at the extended reals, a sum along the last axis as a sum over its coordinate and a maximum along it from `-∞`
    as the fold of `max` over its coordinate (`laneSum3_apply`, `laneMax3_apply`, over `lift3_axis2`: the index a
    reduction of the last axis inserts).
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRank3

open Idealize.ShloMosaic Idealize.ShloMosaic.ValueIdx

/-! ## Layout operations at an index given by coordinates -/

section Layout
variable {α : Type}

/-- A `[1, 1, a, b, c]` array cast to `[a, b, c]` reads, at `(p, q, r)`, the operand at `(0, 0, p, q, r)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (p : Fin a) (q : Fin b) (r : Fin c) :
    shapeCast ⟨3, ![a, b, c]⟩ x h (ix3 p q r) = x (ix5 (0 : Fin 1) (0 : Fin 1) p q r) :=
  shapeCast_apply x h _ _ (by
    rw [Shape.rowMajor_val_five, Shape.rowMajor_val_three]
    show ((((0 * 1 + 0) * a + p.val) * b + q.val) * c + r.val) = (p.val * b + q.val) * c + r.val
    simp only [Nat.zero_mul, Nat.zero_add])

/-- An `[a, b, c]` array cast to `[1, 1, a, b, c]` reads, at `(u, v, p, q, r)`, the operand at `(p, q, r)`,
whatever the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (p : Fin a) (q : Fin b) (r : Fin c) :
    shapeCast ⟨5, ![1, 1, a, b, c]⟩ x h (ix5 u v p q r) = x (ix3 p q r) :=
  shapeCast_apply x h _ _ (by
    have hu : u.val = 0 := by omega
    have hv : v.val = 0 := by omega
    rw [Shape.rowMajor_val_five, Shape.rowMajor_val_three]
    show (p.val * b + q.val) * c + r.val = ((((u.val * 1 + v.val) * a + p.val) * b + q.val) * c + r.val)
    rw [hu, hv]
    simp only [Nat.zero_mul, Nat.zero_add])

/-- An `[a, b]` array cast to `[a, b, 1]` (a reduced axis kept as a unit axis) reads, at `(p, q, w)`, the operand
at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (w : Fin 1) :
    shapeCast ⟨3, ![a, b, 1]⟩ x h (ix3 p q w) = x (ix2 p q) :=
  shapeCast_apply x h _ _ (by
    have hw : w.val = 0 := by omega
    rw [Shape.rowMajor_val_three, Shape.rowMajor_val_two]
    show p.val * b + q.val = (p.val * b + q.val) * 1 + w.val
    rw [hw, Nat.mul_one, Nat.add_zero])

/-- An `[a, b, 1]` array broadcast along its unit axis to `[a, b, c]` reads, at `(p, q, r)`, the operand at
`(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q (0 : Fin 1)) := by
  refine broadcastTo_apply x h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A rank-3 array cut along its last axis from `o` reads, at `(p, q, j)`, the source at `(p, q, k)` with
`k = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (p : Fin n0) (q : Fin n1) (j : Fin m) (k : Fin n2) (hk : k.val = o + j.val) :
    extractStridedSlice ⟨3, ![n0, n1, m]⟩ ![0, 0, o] X h (ix3 p q j) = X (ix3 p q k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A rank-3 array with its first two axes swapped (permutation `[1, 0, 2]`) reads, at `(q, p, r)`, the operand at
`(p, q, r)`. -/
theorem transpose_ix3_102_apply {a b c : ℕ} (x : (⟨3, ![a, b, c]⟩ : Shape).Idx → α)
    (h : (⟨3, ![a, b, c]⟩ : Shape).Transposes [1, 0, 2] ⟨3, ![b, a, c]⟩) (q : Fin b) (p : Fin a) (r : Fin c) :
    transpose ⟨3, ![b, a, c]⟩ [1, 0, 2] x h (ix3 q p r) = x (ix3 p q r) :=
  transpose_apply _ x h _ _ fun d => match d with | ⟨0, _⟩ => rfl | ⟨1, _⟩ => rfl | ⟨2, _⟩ => rfl

end Layout

/-! ## Reductions along the last axis of a rank-3 array, at an index given by coordinates -/

section Lane

/-- The index the reduction inserts: over `(p, q)` with coordinate `k` on the dropped last axis it is `(p, q, k)`. -/
theorem lift3_axis2 {n0 n1 n2 : ℕ} (h : (⟨3, ![n0, n1, n2]⟩ : Shape).Reduces [2] ⟨2, ![n0, n1]⟩)
    (p : Fin n0) (q : Fin n1) (k : Fin n2) : h.lift (ix2 p q) k = ix3 p q k :=
  funext fun a => Fin.ext (by
    match a with
    | ⟨0, _⟩ => rfl
    | ⟨1, _⟩ => rfl
    | ⟨2, _⟩ => rfl)

/-- A sum along the last axis, read at `(p, q)`, is the sum over the last coordinate. -/
theorem laneSum3_apply {n0 n1 n2 : ℕ} (x : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = FKind.add.neutral .f32 hφ) (p : Fin n0) (q : Fin n1) :
    multiReduction (F := Ideal) .add [2] ⟨2, ![n0, n1]⟩ x 0x00000000#32 h hφ hacc (ix2 p q) = ∑ k : Fin n2, x (ix3 p q k) :=
  (Ideal.multiReduction_add_single x 0x00000000#32 h hφ hacc (ix2 p q)).trans
    (Finset.sum_congr rfl fun k _ => congrArg x (lift3_axis2 h p q k))

/-- A maximum along the last axis from `-∞`, read at `(p, q)`, is the fold of `max` from `-∞` over the last
coordinate. -/
theorem laneMax3_apply {n0 n1 n2 : ℕ} (x : FVec Ideal ⟨3, ![n0, n1, n2]⟩ .f32)
    (h : (⟨3, ![n0, n1, n2]⟩ : Shape).Reduces [2] ⟨2, ![n0, n1]⟩) (hφ : FKind.Formats .f32)
    (hacc : (0xFF800000#32 : BitVec 32) = FKind.maximumf.neutral .f32 hφ) (p : Fin n0) (q : Fin n1) :
    multiReduction (F := Ideal) .maximumf [2] ⟨2, ![n0, n1]⟩ x 0xFF800000#32 h hφ hacc (ix2 p q)
      = (Finset.univ : Finset (Fin n2)).fold max (Ideal.ofBits .f32 0xFF800000#32) (fun k => x (ix3 p q k)) :=
  (Ideal.multiReduction_maximumf_single x 0xFF800000#32 h hφ hacc (ix2 p q)).trans
    (congrArg (fun f : Fin n2 → EReal => (Finset.univ : Finset (Fin n2)).fold max (Ideal.ofBits .f32 0xFF800000#32) f)
      (funext fun k => congrArg x (lift3_axis2 h p q k)))

end Lane

end Cert.LibRank3

end
-- ==== Proof.BlockValue.lean ====
/-
  The value the kernel body stores, read index by index: the block of attention weights of 128 query rows
  against all 1024 key rows of one (batch, neighbourhood) pair.

  The body's arithmetic is one pure term over the three blocks it loads (keys, queries, attention vectors).
  It is cut here into the score array (a lane sum of products, broadcast along the key axis, plus a matrix
  product contracting the 64 features) and the row softmax of an arbitrary score array (row maximum from -∞,
  exponential of the difference, lane sum, quotient); each is read at an index (head, query row, key row), and
  the two layout operations around them (a transpose of the first two axes, two unit axes put in front) are
  read at an index as well. At the extended reals every operation is the textbook one and the change of format
  before the matrix product is the identity, so each side is literally the same formula.
-/
import proofs.«102214_j79688823210736_1_alg».proof.Proof.Gen.KernelIdeal.Skeleton
import proofs.«102214_j79688823210736_1_alg».proof.Proof.Spec
import proofs.«102214_j79688823210736_1_alg».proof.Proof.LibRank3
import Idealize.ShloMosaic.Lib.ValueIdx
import Idealize.ShloMosaic.Lib.ValueLayout
import Idealize.ShloMosaic.Lib.Pipeline.Value
import Idealize.ShloMosaic.PureOps.Ideal.Laws

noncomputable section

namespace Cert.BlockValue

open Idealize.ShloMosaic Idealize.ShloMosaic.ValueIdx
open Cert.KernelIdeal Cert.KernelIdeal.Gen Cert.LibRank3

/-! ## The matrix product at an index -/

section Dot

/-- The product's dimension numbers: the head axis is a batch axis of both operands, the 64 features are contracted. -/
abbrev DD : DotDims S8x128x64 S8x1024x64 S8x128x1024 := dot_S8x128x64_S8x1024x64_S8x128x1024_2_2_1_1_0_0

theorem lhs_0 (i : S8x128x1024.Idx) (q : DD.contr.Idx) : (DD.lhsIdx i q 0).val = (i 0).val := by
  unfold DotDims.lhsIdx
  rw [dif_pos (show (0 : Fin S8x128x64.rank) ∈ DD.lhsBatch by decide)]
  rfl
theorem lhs_1 (i : S8x128x1024.Idx) (q : DD.contr.Idx) : (DD.lhsIdx i q 1).val = (i 1).val := by
  unfold DotDims.lhsIdx
  rw [dif_neg (show ¬(1 : Fin S8x128x64.rank) ∈ DD.lhsBatch by decide),
    dif_pos (show (1 : Fin S8x128x64.rank) ∈ DD.lhsNonContracting by decide)]
  rfl
theorem lhs_2 (i : S8x128x1024.Idx) (q : DD.contr.Idx) : (DD.lhsIdx i q 2).val = (q ⟨0, by decide⟩).val :=
  DD.lhsIdx_val_of_single rfl i q
theorem rhs_0 (i : S8x128x1024.Idx) (q : DD.contr.Idx) : (DD.rhsIdx i q 0).val = (i 0).val := by
  unfold DotDims.rhsIdx
  rw [dif_pos (show (0 : Fin S8x1024x64.rank) ∈ DD.rhsBatch by decide)]
  rfl
theorem rhs_1 (i : S8x128x1024.Idx) (q : DD.contr.Idx) : (DD.rhsIdx i q 1).val = (i 2).val := by
  unfold DotDims.rhsIdx
  rw [dif_neg (show ¬(1 : Fin S8x1024x64.rank) ∈ DD.rhsBatch by decide),
    dif_pos (show (1 : Fin S8x1024x64.rank) ∈ DD.rhsNonContracting by decide)]
  rfl
theorem rhs_2 (i : S8x128x1024.Idx) (q : DD.contr.Idx) : (DD.rhsIdx i q 2).val = (q ⟨0, by decide⟩).val :=
  DD.rhsIdx_val_of_single rfl i q

/-- The matrix product into a zero accumulator, read at `(h, i, j)`: the sum over the 64 features of the left
operand's row `(h, i)` times the right operand's row `(h, j)`. -/
theorem matmul_ix3_apply (l : FVec Ideal S8x128x64 .bf16) (r : FVec Ideal S8x1024x64 .bf16)
    (h : Fin 8) (i : Fin 128) (j : Fin 1024) :
    matmul DD none l r (constant (F := Ideal) S8x128x1024 .f32 0x00000000#32) (ix3 h i j)
      = ∑ k : Fin 64, l (ix3 h i k) * r (ix3 h j k) := by
  refine (Ideal.matmul_constant_zero_apply DD none l r (ix3 h i j)).trans ?_
  refine (Equiv.sum_comp (contrEquiv1 DD 64 rfl rfl).symm _).symm.trans ?_
  refine Finset.sum_congr rfl fun k _ => ?_
  have hk := contrEquiv1_symm_val DD 64 rfl rfl k
  have el : DD.lhsIdx (ix3 h i j) ((contrEquiv1 DD 64 rfl rfl).symm k) = ix3 h i k := funext fun a => Fin.ext (by
    match a with
    | ⟨0, _⟩ => exact lhs_0 _ _
    | ⟨1, _⟩ => exact lhs_1 _ _
    | ⟨2, _⟩ => exact (lhs_2 _ _).trans hk)
  have er : DD.rhsIdx (ix3 h i j) ((contrEquiv1 DD 64 rfl rfl).symm k) = ix3 h j k := funext fun a => Fin.ext (by
    match a with
    | ⟨0, _⟩ => exact rhs_0 _ _
    | ⟨1, _⟩ => exact rhs_1 _ _
    | ⟨2, _⟩ => exact (rhs_2 _ _).trans hk)
  rw [el, er]

end Dot

/-! ## The body's term, cut into the scores and the row softmax -/

/-- The score array of the block, as the body computes it: the lane sum of the query rows times the first halves of
their attention vectors, broadcast along the key axis, plus the matrix product of the second halves with the key
rows. -/
def scoreVec (v0 : Vec Ideal S1x1x8x1024x64 .f32) (v3 : Vec Ideal S1x1x8x128x64 .f32) (v5 : Vec Ideal S1x1x8x128x128 .f32) :
    FVec Ideal S8x128x1024 .f32 :=
  have v1 : FVec Ideal S8x1024x64 .f32 := shapeCast S8x1024x64 v0 shapeCasts_S1x1x8x1024x64_S8x1024x64
  have v2 : FVec Ideal S8x1024x64 .bf16 := truncf .bf16 v1 bitsLt_bf16_f32
  have v4 : FVec Ideal S8x128x64 .f32 := shapeCast S8x128x64 v3 shapeCasts_S1x1x8x128x64_S8x128x64
  have v6 : FVec Ideal S8x128x128 .f32 := shapeCast S8x128x128 v5 shapeCasts_S1x1x8x128x128_S8x128x128
  have v7 : FVec Ideal S8x128x64 .f32 := extractStridedSlice S8x128x64 ![0, 0, 0] v6 slices_S8x128x128_o0_0_0_S8x128x64
  have v8 : FVec Ideal S8x128x64 .f32 := extractStridedSlice S8x128x64 ![0, 0, 64] v6 slices_S8x128x128_o0_0_64_S8x128x64
  have v9 : FVec Ideal S8x128x64 .f32 := mulf v4 v7
  have v10 : FVec Ideal S8x128 .f32 := multiReduction .add [2] S8x128 v9 0x00000000#32 reduces_S8x128x64_S8x128 (.inl rfl) rfl
  have v11 : FVec Ideal S8x128x64 .bf16 := truncf .bf16 v8 bitsLt_bf16_f32
  have cst_14 : FVec Ideal S8x128x1024 .f32 := constant S8x128x1024 .f32 0x00000000#32
  have v12 : FVec Ideal S8x128x1024 .f32 := matmul dot_S8x128x64_S8x1024x64_S8x128x1024_2_2_1_1_0_0 none v11 v2 cst_14
  have v13 : FVec Ideal S8x128x1 .f32 := shapeCast S8x128x1 v10 shapeCasts_S8x128_S8x128x1
  have v14 : FVec Ideal S8x128x1024 .f32 := broadcastTo S8x128x1024 v13 broadcasts_S8x128x1_S8x128x1024
  addf v14 v12

/-- The exponentials of a score array less its row maxima, as the body computes them: the lane maximum from `-∞` (and
once more against `-∞`), kept as a unit axis and broadcast along the key axis, the difference, its exponential. -/
def expVec (v15 : FVec Ideal S8x128x1024 .f32) : FVec Ideal S8x128x1024 .f32 :=
  have v16 : FVec Ideal S8x128 .f32 := multiReduction .maximumf [2] S8x128 v15 0xFF800000#32 reduces_S8x128x1024_S8x128 (.inl rfl) rfl
  have cst_16 : Ideal .f32 := Scalar.ofBits .f32 0xFF800000#32
  have v17 : FVec Ideal S8x128 .f32 := broadcast S8x128 cst_16
  have v18 : FVec Ideal S8x128 .f32 := maximumf v17 v16
  have v19 : FVec Ideal S8x128x1 .f32 := shapeCast S8x128x1 v18 shapeCasts_S8x128_S8x128x1
  have v20 : FVec Ideal S8x128x1024 .f32 := broadcastTo S8x128x1024 v19 broadcasts_S8x128x1_S8x128x1024
  have v21 : FVec Ideal S8x128x1024 .f32 := subf v15 v20
  exp v21

/-- The row softmax of a score array, as the body computes it: those exponentials over their lane sum. -/
def softVec (v15 : FVec Ideal S8x128x1024 .f32) : FVec Ideal S8x128x1024 .f32 :=
  have v22 : FVec Ideal S8x128x1024 .f32 := expVec v15
  have v23 : FVec Ideal S8x128 .f32 := multiReduction .add [2] S8x128 v22 0x00000000#32 reduces_S8x128x1024_S8x128 (.inl rfl) rfl
  have v24 : FVec Ideal S8x128x1 .f32 := shapeCast S8x128x1 v23 shapeCasts_S8x128_S8x128x1
  have v25 : FVec Ideal S8x128x1024 .f32 := broadcastTo S8x128x1024 v24 broadcasts_S8x128x1_S8x128x1024
  divf v22 v25

/-- The body's stored value is the softmax of the scores, the first two axes swapped and two unit axes put in front. -/
theorem pay_split (v0 : Vec Ideal S1x1x8x1024x64 .f32) (v3 : Vec Ideal S1x1x8x128x64 .f32) (v5 : Vec Ideal S1x1x8x128x128 .f32) :
    k0_pay1 (F := Ideal) v0 v3 v5
      = shapeCast S1x1x128x8x1024
          (transpose S128x8x1024 [1, 0, 2] (softVec (scoreVec v0 v3 v5)) transposes_S8x128x1024_p1_0_2_S128x8x1024)
          shapeCasts_S128x8x1024_S1x1x128x8x1024 := rfl

/-! ## The scores at an index -/

/-- The body's score at `(h, i, j)` is the specification's. -/
theorem scoreVec_apply (v0 : Vec Ideal S1x1x8x1024x64 .f32) (v3 : Vec Ideal S1x1x8x128x64 .f32) (v5 : Vec Ideal S1x1x8x128x128 .f32)
    (h : Fin 8) (i : Fin 128) (j : Fin 1024) :
    scoreVec v0 v3 v5 (ix3 h i j) = Cert.Attn.blockScore v0 v3 v5 h i j := by
  unfold scoreVec Cert.Attn.blockScore
  refine (addf_apply _ _ _).trans (congrArg₂ (· + ·) ?_ ?_)
  · -- the lane sum, kept as a unit axis and broadcast along the key axis
    refine (broadcastTo_ab1_abc_apply _ _ h i j).trans ?_
    refine (shapeCast_ab_ab1_apply _ _ h i 0).trans ?_
    refine (laneSum3_apply _ _ _ _ h i).trans ?_
    refine Finset.sum_congr rfl fun k _ => ?_
    refine (mulf_apply _ _ _).trans (congrArg₂ (· * ·) ?_ ?_)
    · exact shapeCast_11abc_abc_apply v3 _ h i k
    · refine (slice3_axis2_apply 0 _ _ h i k (Cert.Attn.lo k) (Nat.zero_add _).symm).trans ?_
      exact shapeCast_11abc_abc_apply v5 _ h i (Cert.Attn.lo k)
  · -- the matrix product; the change of format of its operands is the identity
    refine (matmul_ix3_apply _ _ h i j).trans ?_
    refine Finset.sum_congr rfl fun k _ => ?_
    refine congrArg₂ (· * ·) ?_ ?_
    · refine (truncf_apply (φ := .f32) (ψ := .bf16) _ bitsLt_bf16_f32 (ix3 h i k)).trans ?_
      refine (slice3_axis2_apply 64 _ _ h i k (Cert.Attn.hi k) rfl).trans ?_
      exact shapeCast_11abc_abc_apply v5 _ h i (Cert.Attn.hi k)
    · refine (truncf_apply (φ := .f32) (ψ := .bf16) _ bitsLt_bf16_f32 (ix3 h j k)).trans ?_
      exact shapeCast_11abc_abc_apply v0 _ h j k

/-! ## The row softmax at an index -/

/-- An exponential read at an index is the exponential of the element. -/
theorem exp_apply {s : Shape} {φ : FTy} (x : FVec Ideal s φ) (i : s.Idx) : exp x i = Ideal.exp (x i) := rfl

/-- The body's exponential at `(h, i, j)` is the specification's, of row `(h, i)` of the score array. -/
theorem expVec_apply (s : FVec Ideal S8x128x1024 .f32) (h : Fin 8) (i : Fin 128) (j : Fin 1024) :
    expVec s (ix3 h i j) = Cert.Attn.rowExp (fun j' => s (ix3 h i j')) j := by
  unfold expVec Cert.Attn.rowExp Cert.Attn.rowMax
  refine (exp_apply _ _).trans (congrArg Ideal.exp ?_)
  refine (subf_apply _ _ _).trans (congrArg (fun t => s (ix3 h i j) - t) ?_)
  -- the row maximum, kept as a unit axis and broadcast along the key axis
  refine (broadcastTo_ab1_abc_apply _ _ h i j).trans ?_
  refine (shapeCast_ab_ab1_apply _ _ h i 0).trans ?_
  refine (maximumf_apply _ _ _).trans ?_
  exact congrArg (max (Ideal.ofBits .f32 0xFF800000#32)) (laneMax3_apply s _ _ _ h i)

/-- The body's softmax at `(h, i, j)` is the specification's, of row `(h, i)` of the score array. -/
theorem softVec_apply (s : FVec Ideal S8x128x1024 .f32) (h : Fin 8) (i : Fin 128) (j : Fin 1024) :
    softVec s (ix3 h i j) = Cert.Attn.rowSoftmax (fun j' => s (ix3 h i j')) j := by
  unfold softVec Cert.Attn.rowSoftmax
  refine (divf_apply _ _ _).trans (congrArg₂ Ideal.div (expVec_apply s h i j) ?_)
  -- the lane sum of the exponentials, kept as a unit axis and broadcast along the key axis
  refine (broadcastTo_ab1_abc_apply _ _ h i j).trans ?_
  refine (shapeCast_ab_ab1_apply _ _ h i 0).trans ?_
  refine (laneSum3_apply _ _ _ _ h i).trans ?_
  exact Finset.sum_congr rfl fun j' _ => expVec_apply s h i j'

/-! ## The stored value is the block specification -/

/-- The value the body stores is the block of attention weights. -/
theorem pay_eq (v0 : Vec Ideal S1x1x8x1024x64 .f32) (v3 : Vec Ideal S1x1x8x128x64 .f32) (v5 : Vec Ideal S1x1x8x128x128 .f32) :
    k0_pay1 (F := Ideal) v0 v3 v5 = Cert.Attn.blockOut v0 v3 v5 := by
  funext o
  obtain ⟨u, v, i, h, j, rfl⟩ : ∃ (u v : Fin 1) (i : Fin 128) (h : Fin 8) (j : Fin 1024), o = ix5 u v i h j :=
    ⟨o 0, o 1, o 2, o 3, o 4, eq_ix5 o⟩
  rw [Cert.Attn.blockOut_ix, pay_split]
  refine (shapeCast_abc_11abc_apply _ _ u v i h j).trans ?_
  refine (transpose_ix3_102_apply _ _ i h j).trans ?_
  refine (softVec_apply _ h i j).trans ?_
  exact congrArg (fun s => Cert.Attn.rowSoftmax s j) (funext fun j' => scoreVec_apply v0 v3 v5 h i j')

end Cert.BlockValue

end
-- ==== Proof.KernelIdealValue.lean ====
/-
  What the attention program leaves in its result array, at the ideal values: the weights `Cert.Attn.G` of the
  head-split features and the attention vectors.

  Point (b, n, i) of the grid writes back the block of 128 query rows 128·i … 128·i+127 of pair (b, n). What it
  writes is the block specification `Cert.Attn.blockOut` of the three blocks it read; and each of those reads is a
  read of the whole arrays at shifted coordinates — the keys' block is pair (b, n)'s rows as they are, the
  queries' and the attention vectors' blocks are rows 128·i + r — so a block row's scores are the whole arrays' scores
  of row 128·i + r, and the block written is the block of `G`. The 4 · 4 · 8 blocks tile the result array, so after
  the run the array is `G` everywhere.
-/
import proofs.«102214_j79688823210736_1_alg».proof.Proof.KernelIdealFrame
import proofs.«102214_j79688823210736_1_alg».proof.Proof.BlockValue
import proofs.«102214_j79688823210736_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros : (![0, 0, 0, 0, 0] : Fin 5 → Nat) = fun _ => 0 := funext fun a => by fin_cases a <;> rfl

/-! ## The arrays the grid reads -/

/-- The features split into heads, as the grid finds them. -/
abbrev xh (c : Dev nD) : Cert.Attn.SHeads.Idx → EReal := Cert.Attn.heads (m ((c : Thread nD τ).loc main_arg0))

/-- The attention vectors. -/
abbrev aw (c : Dev nD) : Cert.Attn.SAw.Idx → EReal := m ((c : Thread nD τ).loc main_arg1)

/-- The two layout operations leave the head-split features in the array the keys' and the queries' windows stage. -/
theorem entry_heads (c : Dev nD) : (entry m c main_v1 : S4x4x8x1024x64.Idx → EReal) = xh m c := by
  dsimp only [entry, hostOps0]; after_results; rfl

theorem entry_aw (c : Dev nD) : (entry m c main_arg1 : S4x4x8x1024x128.Idx → EReal) = aw m c :=
  entry_main_arg1 m c

/-! ## The index maps, decided over the grid -/

/-- At every point the three input windows sit at the result window's (batch, neighbourhood) pair, the queries'
    and the attention vectors' at its row block as well; every other block index is zero. -/
theorem index_facts : ∀ t : Fin cfg0.N,
    (win0_0.index t (0 : Fin 5) = win0_3.index t (0 : Fin 5) ∧ win0_0.index t (1 : Fin 5) = win0_3.index t (1 : Fin 5)
      ∧ win0_0.index t (2 : Fin 5) = 0 ∧ win0_0.index t (3 : Fin 5) = 0 ∧ win0_0.index t (4 : Fin 5) = 0)
    ∧ (win0_1.index t (0 : Fin 5) = win0_3.index t (0 : Fin 5) ∧ win0_1.index t (1 : Fin 5) = win0_3.index t (1 : Fin 5)
      ∧ win0_1.index t (2 : Fin 5) = 0 ∧ win0_1.index t (3 : Fin 5) = win0_3.index t (2 : Fin 5) ∧ win0_1.index t (4 : Fin 5) = 0)
    ∧ (win0_2.index t (0 : Fin 5) = win0_3.index t (0 : Fin 5) ∧ win0_2.index t (1 : Fin 5) = win0_3.index t (1 : Fin 5)
      ∧ win0_2.index t (2 : Fin 5) = 0 ∧ win0_2.index t (3 : Fin 5) = win0_3.index t (2 : Fin 5) ∧ win0_2.index t (4 : Fin 5) = 0)
    ∧ (win0_3.index t (0 : Fin 5) ≤ 3 ∧ win0_3.index t (1 : Fin 5) ≤ 3 ∧ win0_3.index t (2 : Fin 5) ≤ 7
      ∧ win0_3.index t (3 : Fin 5) = 0 ∧ win0_3.index t (4 : Fin 5) = 0) :=
  (by decide +kernel : ∀ t : Fin grid0.N, _)

/-- Every (batch, neighbourhood, row block) is some point's. -/
theorem index_onto : ∀ (q0 q1 : Fin 4) (q2 : Fin 8), ∃ t : Fin cfg0.N, win0_3.index t = ![q0.val, q1.val, q2.val, 0, 0] :=
  (by decide +kernel : ∀ (q0 q1 : Fin 4) (q2 : Fin 8), ∃ t : Fin grid0.N, win0_3.index t = ![q0.val, q1.val, q2.val, 0, 0])

/-! ## The blocks read, as reads of the whole arrays -/

/-- The keys' block at a point of pair (b, n): row `j` of the block is row `j` of the pair. -/
theorem key_read (c : Dev nD) (t : Fin cfg0.N) (b n : Fin 4) (h : Fin 8) (j : Fin 1024) (k : Fin 64)
    (e0 : win0_0.index t (0 : Fin 5) = b.val) (e1 : win0_0.index t (1 : Fin 5) = n.val) (e2 : win0_0.index t (2 : Fin 5) = 0)
    (e3 : win0_0.index t (3 : Fin 5) = 0) (e4 : win0_0.index t (4 : Fin 5) = 0) :
    blockAt m c 0 t (ix5 (0 : Fin 1) (0 : Fin 1) h j k) = xh m c (ix5 b n h j k) := by
  rw [← entry_heads]
  unfold blockAt
  show entry m c main_v1 (((cfg0.win 0).blk t).view.emb (ix5 (0 : Fin 1) (0 : Fin 1) h j k)) = entry m c main_v1 (ix5 b n h j k)
  refine congrArg _ ?_
  funext a; apply Fin.ext
  match a with
  | ⟨0, _⟩ => show win0_0.index t (0 : Fin 5) * 1 + 1 * 0 = b.val; omega
  | ⟨1, _⟩ => show win0_0.index t (1 : Fin 5) * 1 + 1 * 0 = n.val; omega
  | ⟨2, _⟩ => show win0_0.index t (2 : Fin 5) * 8 + 1 * h.val = h.val; omega
  | ⟨3, _⟩ => show win0_0.index t (3 : Fin 5) * 1024 + 1 * j.val = j.val; omega
  | ⟨4, _⟩ => show win0_0.index t (4 : Fin 5) * 64 + 1 * k.val = k.val; omega

/-- The queries' block at a point of pair (b, n) and row block `q`: row `i` of the block is row 128·q + i. -/
theorem qry_read (c : Dev nD) (t : Fin cfg0.N) (b n : Fin 4) (h : Fin 8) (i : Fin 128) (I : Fin 1024) (k : Fin 64) (q : Nat)
    (e0 : win0_1.index t (0 : Fin 5) = b.val) (e1 : win0_1.index t (1 : Fin 5) = n.val) (e2 : win0_1.index t (2 : Fin 5) = 0)
    (e3 : win0_1.index t (3 : Fin 5) = q) (e4 : win0_1.index t (4 : Fin 5) = 0) (hI : I.val = q * 128 + i.val) :
    blockAt m c 1 t (ix5 (0 : Fin 1) (0 : Fin 1) h i k) = xh m c (ix5 b n h I k) := by
  rw [← entry_heads]
  unfold blockAt
  show entry m c main_v1 (((cfg0.win 1).blk t).view.emb (ix5 (0 : Fin 1) (0 : Fin 1) h i k)) = entry m c main_v1 (ix5 b n h I k)
  refine congrArg _ ?_
  funext a; apply Fin.ext
  match a with
  | ⟨0, _⟩ => show win0_1.index t (0 : Fin 5) * 1 + 1 * 0 = b.val; omega
  | ⟨1, _⟩ => show win0_1.index t (1 : Fin 5) * 1 + 1 * 0 = n.val; omega
  | ⟨2, _⟩ => show win0_1.index t (2 : Fin 5) * 8 + 1 * h.val = h.val; omega
  | ⟨3, _⟩ => show win0_1.index t (3 : Fin 5) * 128 + 1 * i.val = I.val; omega
  | ⟨4, _⟩ => show win0_1.index t (4 : Fin 5) * 64 + 1 * k.val = k.val; omega

/-- The attention vectors' block likewise, every one of the 128 columns. -/
theorem att_read (c : Dev nD) (t : Fin cfg0.N) (b n : Fin 4) (h : Fin 8) (i : Fin 128) (I : Fin 1024) (k : Fin 128) (q : Nat)
    (e0 : win0_2.index t (0 : Fin 5) = b.val) (e1 : win0_2.index t (1 : Fin 5) = n.val) (e2 : win0_2.index t (2 : Fin 5) = 0)
    (e3 : win0_2.index t (3 : Fin 5) = q) (e4 : win0_2.index t (4 : Fin 5) = 0) (hI : I.val = q * 128 + i.val) :
    blockAt m c 2 t (ix5 (0 : Fin 1) (0 : Fin 1) h i k) = aw m c (ix5 b n h I k) := by
  rw [← entry_aw]
  unfold blockAt
  show entry m c main_arg1 (((cfg0.win 2).blk t).view.emb (ix5 (0 : Fin 1) (0 : Fin 1) h i k)) = entry m c main_arg1 (ix5 b n h I k)
  refine congrArg _ ?_
  funext a; apply Fin.ext
  match a with
  | ⟨0, _⟩ => show win0_2.index t (0 : Fin 5) * 1 + 1 * 0 = b.val; omega
  | ⟨1, _⟩ => show win0_2.index t (1 : Fin 5) * 1 + 1 * 0 = n.val; omega
  | ⟨2, _⟩ => show win0_2.index t (2 : Fin 5) * 8 + 1 * h.val = h.val; omega
  | ⟨3, _⟩ => show win0_2.index t (3 : Fin 5) * 128 + 1 * i.val = I.val; omega
  | ⟨4, _⟩ => show win0_2.index t (4 : Fin 5) * 128 + 1 * k.val = k.val; omega

/-! ## What a point writes back -/

/-- WHAT POINT `t` WRITES BACK is block `t` of the weights of the arrays as the grid finds them. -/
theorem flushed_eq (c : Dev nD) (t : Fin cfg0.N) :
    (proofData m c).flushed 3 t = ((cfg0.win 3).blk t).view.read (Elt Ideal) (Cert.Attn.G (xh m c) (aw m c)) := by
  show (cfg0.win 3).cut (grid0.coords t) ((proofData m c).after 3 t) = _
  rw [after_out]
  unfold written
  rw [View.canon_unit_zero zeros]
  simp only [View.ld_unit_zero (S := S1x1x8x1024x64) zeros, View.ld_unit_zero (S := S1x1x8x128x64) zeros,
    View.ld_unit_zero (S := S1x1x8x128x128) zeros]
  rw [Cert.BlockValue.pay_eq]
  obtain ⟨⟨k0, k1, k2, k3, k4⟩, ⟨q0, q1, q2, q3, q4⟩, ⟨a0, a1, a2, a3, a4⟩, ⟨o0, o1, o2, o3, o4⟩⟩ := index_facts t
  funext y
  obtain ⟨u, v, i, h, j, rfl⟩ : ∃ (u v : Fin 1) (i : Fin 128) (h : Fin 8) (j : Fin 1024), y = ix5 u v i h j :=
    ⟨y 0, y 1, y 2, y 3, y 4, eq_ix5 y⟩
  -- the block's element (i, h, j) is the array's element (b, n, 128·q + i, h, j)
  show Cert.Attn.blockOut (blockAt m c 0 t) (blockAt m c 1 t) (blockAt m c 2 t) (ix5 u v i h j)
    = Cert.Attn.G (xh m c) (aw m c) (((cfg0.win 3).blk t).view.emb (ix5 u v i h j))
  let b : Fin 4 := ⟨win0_3.index t (0 : Fin 5), by omega⟩
  let n : Fin 4 := ⟨win0_3.index t (1 : Fin 5), by omega⟩
  let I : Fin 1024 := ⟨win0_3.index t (2 : Fin 5) * 128 + i.val, by have := i.isLt; omega⟩
  have hemb : ((cfg0.win 3).blk t).view.emb (ix5 u v i h j) = ix5 b n I h j := by
    funext a; apply Fin.ext
    match a with
    | ⟨0, _⟩ => show win0_3.index t (0 : Fin 5) * 1 + 1 * u.val = win0_3.index t (0 : Fin 5); have := u.isLt; omega
    | ⟨1, _⟩ => show win0_3.index t (1 : Fin 5) * 1 + 1 * v.val = win0_3.index t (1 : Fin 5); have := v.isLt; omega
    | ⟨2, _⟩ => show win0_3.index t (2 : Fin 5) * 128 + 1 * i.val = win0_3.index t (2 : Fin 5) * 128 + i.val; omega
    | ⟨3, _⟩ => show win0_3.index t (3 : Fin 5) * 8 + 1 * h.val = h.val; omega
    | ⟨4, _⟩ => show win0_3.index t (4 : Fin 5) * 1024 + 1 * j.val = j.val; omega
  rw [hemb, Cert.Attn.G_ix, Cert.Attn.blockOut_ix]
  refine congrFun (Cert.Attn.rowSoftmax_congr fun j' => ?_) j
  unfold Cert.Attn.blockScore Cert.Attn.score
  have hq : ∀ k : Fin 64, blockAt m c 1 t (ix5 (0 : Fin 1) (0 : Fin 1) h i k) = xh m c (ix5 b n h I k) := fun k =>
    qry_read m c t b n h i I k _ (q0.trans rfl) (q1.trans rfl) q2 q3 q4 rfl
  have ha : ∀ k : Fin 128, blockAt m c 2 t (ix5 (0 : Fin 1) (0 : Fin 1) h i k) = aw m c (ix5 b n h I k) := fun k =>
    att_read m c t b n h i I k _ (a0.trans rfl) (a1.trans rfl) a2 a3 a4 rfl
  have hk : ∀ k : Fin 64, blockAt m c 0 t (ix5 (0 : Fin 1) (0 : Fin 1) h j' k) = xh m c (ix5 b n h j' k) := fun k =>
    key_read m c t b n h j' k (k0.trans rfl) (k1.trans rfl) k2 k3 k4
  simp only [hq, ha, hk]

/-! ## The blocks tile the array -/

/-- An index of the result array is in point `t`'s block iff each coordinate is in the block's range on its axis. -/
theorem mem_block (t : Fin cfg0.N) (o : S4x4x1024x8x1024.Idx) :
    o ∈ ((cfg0.win 3).blk t).view.set ↔ ∀ a : Fin 5, win0_3.index t a * S1x1x128x8x1024.size a ≤ (o a).val
      ∧ (o a).val < win0_3.index t a * S1x1x128x8x1024.size a + S1x1x128x8x1024.size a := by
  show o ∈ ((View.whole main_v2).slice (win0_3.rect t)).set ↔ _
  rw [View.set_slice_whole, Rect.mem_set_unit]
  exact Iff.rfl

/-- Every index of the result array is in the block of the point of its (batch, neighbourhood, row / 128). -/
theorem covered (o : S4x4x1024x8x1024.Idx) :
    ∃ t : Fin cfg0.N, (cfg0.win 3).flush t = true ∧ o ∈ ((cfg0.win 3).blk t).view.set := by
  have h0 : (o 0).val < 4 := (o 0).isLt
  have h1 : (o 1).val < 4 := (o 1).isLt
  have h2 : (o 2).val < 1024 := (o 2).isLt
  have h3 : (o 3).val < 8 := (o 3).isLt
  have h4 : (o 4).val < 1024 := (o 4).isLt
  obtain ⟨t, ht⟩ := index_onto ⟨(o 0).val, h0⟩ ⟨(o 1).val, h1⟩ ⟨(o 2).val / 128, by omega⟩
  have q0 : win0_3.index t (0 : Fin 5) = (o 0).val := congrFun ht 0
  have q1 : win0_3.index t (1 : Fin 5) = (o 1).val := congrFun ht 1
  have q2 : win0_3.index t (2 : Fin 5) = (o 2).val / 128 := congrFun ht 2
  have q3 : win0_3.index t (3 : Fin 5) = 0 := congrFun ht 3
  have q4 : win0_3.index t (4 : Fin 5) = 0 := congrFun ht 4
  refine ⟨t, flush0_3 t, ?_⟩
  rw [mem_block]
  intro a
  match a with
  | ⟨0, _⟩ => show win0_3.index t (0 : Fin 5) * 1 ≤ (o 0).val ∧ (o 0).val < win0_3.index t (0 : Fin 5) * 1 + 1; omega
  | ⟨1, _⟩ => show win0_3.index t (1 : Fin 5) * 1 ≤ (o 1).val ∧ (o 1).val < win0_3.index t (1 : Fin 5) * 1 + 1; omega
  | ⟨2, _⟩ => show win0_3.index t (2 : Fin 5) * 128 ≤ (o 2).val ∧ (o 2).val < win0_3.index t (2 : Fin 5) * 128 + 128; omega
  | ⟨3, _⟩ => show win0_3.index t (3 : Fin 5) * 8 ≤ (o 3).val ∧ (o 3).val < win0_3.index t (3 : Fin 5) * 8 + 8; omega
  | ⟨4, _⟩ => show win0_3.index t (4 : Fin 5) * 1024 ≤ (o 4).val ∧ (o 4).val < win0_3.index t (4 : Fin 5) * 1024 + 1024; omega

/-- THE RESULT ARRAY after the run is the weights. -/
theorem final (c : Dev nD) : (proofData m c).arrAt 3 cfg0.N = Cert.Attn.G (xh m c) (aw m c) :=
  (proofData m c).arrAt_eq_of_cover 3 (Cert.Attn.G (xh m c) (aw m c)) (fun t _ => flushed_eq m c t) covered

/-! ## The run, read -/

/-- Every weakly fair execution of the program at the ideal values ends with the result array at the weights of the
    argument arrays and the argument arrays unchanged. -/
theorem run : θ_run defs (onTc (τ := τ) (main (F := Ideal))) ⟨m, fun _ => 0, ρ⟩ fun r => ∀ c : Dev nD,
      r.2.mem ((c.tc : Thread nD τ).loc main_v2) = Cert.Attn.G (Cert.Attn.heads (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 3).trans (final m c),
      ((h c).2 main_arg0 arg0_bypasses).trans (entry_main_arg0 m c),
      ((h c).1 2).trans (((proofData m c).arrAt_in 2 rfl _).trans ((A_eq m c 2).trans (entry_main_arg1 m c)))⟩)
    (Cert.KernelIdeal.Hand.run m ρ)

end Cert.KernelIdeal.HandValue

end
-- ==== Proof.RefStages.lean ====
/-
  The reference program's stages read at an index: the whole program is the attention weights of the
  specification, one stage at a time (the scores, the row maximum, the exponentials, the row sum, the quotient,
  the final exchange of the head and the query axes).
-/
import proofs.«102214_j79688823210736_1_alg».proof.Proof.Gen.ReferenceIdeal.Read
import proofs.«102214_j79688823210736_1_alg».proof.Proof.Spec
import Idealize.ShloMosaic.Lib.ValueIdx
import Idealize.ShloMosaic.PureOps.Reduce
import Idealize.ShloMosaic.PureOps.Ideal
import Idealize.ShloMosaic.PureOps.Ideal.Laws

noncomputable section

namespace Cert.RefStages

open Cert.ReferenceIdeal Cert.ReferenceIdeal.Gen Cert.ReferenceIdeal.Read Idealize.ShloMosaic
  Idealize.ShloMosaic.ValueIdx Cert.Attn

/-- The features and the attention vectors, as the reference program's arguments hold them. -/
abbrev XT : Type := (⟨S4x4x1024x512, .f32⟩ : BufTy).Contents (Elt Ideal)
abbrev AT : Type := (⟨S4x4x8x1024x128, .f32⟩ : BufTy).Contents (Elt Ideal)

/-- The features split into heads are the program's second stage. -/
theorem heads_eq (x : XT) : Cert.Attn.heads x = val_main_v1 (F := Ideal) x := rfl

/-! ## The scores -/

/-- The first half of an attention vector, sliced out, at feature `k`. -/
theorem v2_ix (aw : AT) (b n : Fin 4) (h : Fin 8) (i : Fin 1024) (k : Fin 64) :
    val_main_v2 (F := Ideal) aw (ix5 b n h i k) = aw (ix5 b n h i (lo k)) := by
  refine (val_main_v2_apply aw _).trans (congrArg aw ?_)
  exact funext fun a => Fin.ext (by match a with | ⟨0, _⟩ => rfl | ⟨1, _⟩ => rfl | ⟨2, _⟩ => rfl | ⟨3, _⟩ => rfl | ⟨4, _⟩ => rfl)

/-- The second half likewise. -/
theorem v3_ix (aw : AT) (b n : Fin 4) (h : Fin 8) (i : Fin 1024) (k : Fin 64) :
    val_main_v3 (F := Ideal) aw (ix5 b n h i k) = aw (ix5 b n h i (hi k)) := by
  refine (val_main_v3_apply aw _).trans (congrArg aw ?_)
  exact funext fun a => Fin.ext (by match a with | ⟨0, _⟩ => rfl | ⟨1, _⟩ => rfl | ⟨2, _⟩ => rfl | ⟨3, _⟩ => rfl | ⟨4, _⟩ => rfl)

/-- The query row's own term: its features against the first half of its attention vector, summed over the
    64 features of the head (from the zero the sum starts at). -/
theorem v5_ix (x : XT) (aw : AT) (b n : Fin 4) (h : Fin 8) (i : Fin 1024) :
    val_main_v5 (F := Ideal) x aw (ix4 b n h i)
      = ∑ k : Fin 64, val_main_v1 (F := Ideal) x (ix5 b n h i k) * aw (ix5 b n h i (lo k)) := by
  refine (val_main_v5_apply x aw _).trans ?_
  refine (congrArg (· + _) Ideal.ofBits_zero_f32).trans ?_
  refine (zero_add _).trans ?_
  refine Finset.sum_congr rfl fun k _ => ?_
  have e : idx_main_v5 (ix4 b n h i) k = ix5 b n h i k :=
    funext fun a => Fin.ext (by match a with | ⟨0, _⟩ => rfl | ⟨1, _⟩ => rfl | ⟨2, _⟩ => rfl | ⟨3, _⟩ => rfl | ⟨4, _⟩ => rfl)
  refine (congrArg (val_main_v4 (F := Ideal) x aw) e).trans ?_
  exact congrArg (val_main_v1 (F := Ideal) x (ix5 b n h i k) * ·) (v2_ix aw b n h i k)

/-- That term, repeated along the key axis. -/
theorem v8_ix (x : XT) (aw : AT) (b n : Fin 4) (h : Fin 8) (i j : Fin 1024) :
    val_main_v8 (F := Ideal) x aw (ix5 b n h i j) = val_main_v5 (F := Ideal) x aw (ix4 b n h i) := by
  refine (val_main_v8_apply x aw _).trans ((val_main_v7_apply x aw _).trans (congrArg (val_main_v5 (F := Ideal) x aw) ?_))
  exact funext fun a => Fin.ext (by match a with | ⟨0, _⟩ => rfl | ⟨1, _⟩ => rfl | ⟨2, _⟩ => rfl | ⟨3, _⟩ => rfl)

/-- The key row's term: the second half of the query row's attention vector against the key row's features. -/
theorem v6_ix (x : XT) (aw : AT) (b n : Fin 4) (h : Fin 8) (i j : Fin 1024) :
    val_main_v6 (F := Ideal) x aw (ix5 b n h i j)
      = ∑ k : Fin 64, aw (ix5 b n h i (hi k)) * val_main_v1 (F := Ideal) x (ix5 b n h j k) := by
  refine (val_main_v6_apply x aw _).trans ?_
  refine Finset.sum_congr rfl fun k _ => ?_
  have el : lidx_main_v6 (ix5 b n h i j) k = ix5 b n h i k :=
    funext fun a => Fin.ext (by match a with | ⟨0, _⟩ => rfl | ⟨1, _⟩ => rfl | ⟨2, _⟩ => rfl | ⟨3, _⟩ => rfl | ⟨4, _⟩ => rfl)
  have er : ridx_main_v6 (ix5 b n h i j) k = ix5 b n h j k :=
    funext fun a => Fin.ext (by match a with | ⟨0, _⟩ => rfl | ⟨1, _⟩ => rfl | ⟨2, _⟩ => rfl | ⟨3, _⟩ => rfl | ⟨4, _⟩ => rfl)
  rw [el, er, v3_ix]

/-- The program's tenth stage is the score. -/
theorem v9_ix (x : XT) (aw : AT) (b n : Fin 4) (h : Fin 8) (i j : Fin 1024) :
    val_main_v9 (F := Ideal) x aw (ix5 b n h i j) = score (val_main_v1 (F := Ideal) x) aw b n h i j := by
  refine (val_main_v9_apply x aw _).trans ?_
  unfold Cert.Attn.score
  exact congrArg₂ (· + ·) ((v8_ix x aw b n h i j).trans (v5_ix x aw b n h i)) (v6_ix x aw b n h i j)

/-! ## The row maximum -/

/-- The key axis dropped from the scores' shape: the witness that names, for a row, its 1024 entries. -/
theorem red_key : S4x4x8x1024x1024.Reduces [4] S4x4x8x1024 := by decide

/-- A row with the key coordinate inserted. -/
theorem lift_key (b n : Fin 4) (h : Fin 8) (i j : Fin 1024) :
    red_key.lift (ix4 b n h i) j = ix5 b n h i j :=
  funext fun a => Fin.ext (by match a with | ⟨0, _⟩ => rfl | ⟨1, _⟩ => rfl | ⟨2, _⟩ => rfl | ⟨3, _⟩ => rfl | ⟨4, _⟩ => rfl)

/-- The maximum reduction over the key axis: the fold of `max` from `-∞` over the row's scores. -/
theorem v10_ix (x : XT) (aw : AT) (b n : Fin 4) (h : Fin 8) (i : Fin 1024) :
    val_main_v10 (F := Ideal) x aw (ix4 b n h i)
      = Finset.univ.fold max negInf (fun j : Fin 1024 => score (val_main_v1 (F := Ideal) x) aw b n h i j) := by
  unfold val_main_v10
  generalize hy : val_main_v9 (F := Ideal) x aw = y
  refine (Host.reduce_eq_fold_single (FloatOps.maximumf (F := Ideal) (φ := .f32)) y (val_main_cst_0 (F := Ideal))
    reducesTo_S4x4x8x1024x1024_S4x4x8x1024_d4 red_key h_S_ (ix4 b n h i)).trans ?_
  subst hy
  refine Finset.fold_congr fun (j : Fin 1024) _ => ?_
  exact (congrArg (val_main_v9 (F := Ideal) x aw) (lift_key b n h i j)).trans (v9_ix x aw b n h i j)

/-- The maximum once more against `-∞`: the row's maximum as the specification takes it. -/
theorem v12_ix (x : XT) (aw : AT) (b n : Fin 4) (h : Fin 8) (i : Fin 1024) :
    val_main_v12 (F := Ideal) x aw (ix4 b n h i)
      = rowMax (fun j : Fin 1024 => score (val_main_v1 (F := Ideal) x) aw b n h i j) := by
  refine (val_main_v12_apply x aw _).trans ?_
  unfold Cert.Attn.rowMax
  show max (val_main_v11 (F := Ideal) (ix4 b n h i)) (val_main_v10 (F := Ideal) x aw (ix4 b n h i)) = _
  exact congrArg₂ max (val_main_v11_apply _) (v10_ix x aw b n h i)

/-- The row's maximum, repeated along the key axis. -/
theorem v14_ix (x : XT) (aw : AT) (b n : Fin 4) (h : Fin 8) (i j : Fin 1024) :
    val_main_v14 (F := Ideal) x aw (ix5 b n h i j) = val_main_v12 (F := Ideal) x aw (ix4 b n h i) := by
  refine (val_main_v14_apply x aw _).trans ((val_main_v13_apply x aw _).trans (congrArg (val_main_v12 (F := Ideal) x aw) ?_))
  exact funext fun a => Fin.ext (by match a with | ⟨0, _⟩ => rfl | ⟨1, _⟩ => rfl | ⟨2, _⟩ => rfl | ⟨3, _⟩ => rfl)

/-! ## The exponentials, their sum, the quotient -/

/-- The exponential of a score less its row's maximum. -/
theorem v16_ix (x : XT) (aw : AT) (b n : Fin 4) (h : Fin 8) (i j : Fin 1024) :
    val_main_v16 (F := Ideal) x aw (ix5 b n h i j)
      = rowExp (fun j' : Fin 1024 => score (val_main_v1 (F := Ideal) x) aw b n h i j') j := by
  refine (val_main_v16_apply x aw _).trans ?_
  unfold Cert.Attn.rowExp
  show Ideal.exp (val_main_v9 (F := Ideal) x aw (ix5 b n h i j) - val_main_v14 (F := Ideal) x aw (ix5 b n h i j)) = _
  rw [v9_ix, v14_ix, v12_ix]

/-- The row's exponentials summed over the key axis (from the zero the sum starts at). -/
theorem v17_ix (x : XT) (aw : AT) (b n : Fin 4) (h : Fin 8) (i : Fin 1024) :
    val_main_v17 (F := Ideal) x aw (ix4 b n h i)
      = ∑ j : Fin 1024, rowExp (fun j' : Fin 1024 => score (val_main_v1 (F := Ideal) x) aw b n h i j') j := by
  refine (val_main_v17_apply x aw _).trans ?_
  refine (congrArg (· + _) Ideal.ofBits_zero_f32).trans ?_
  refine (zero_add _).trans ?_
  refine Finset.sum_congr rfl fun j _ => ?_
  have e : idx_main_v17 (ix4 b n h i) j = ix5 b n h i j :=
    funext fun a => Fin.ext (by match a with | ⟨0, _⟩ => rfl | ⟨1, _⟩ => rfl | ⟨2, _⟩ => rfl | ⟨3, _⟩ => rfl | ⟨4, _⟩ => rfl)
  exact (congrArg (val_main_v16 (F := Ideal) x aw) e).trans (v16_ix x aw b n h i j)

/-- The row's sum, repeated along the key axis. -/
theorem v19_ix (x : XT) (aw : AT) (b n : Fin 4) (h : Fin 8) (i j : Fin 1024) :
    val_main_v19 (F := Ideal) x aw (ix5 b n h i j) = val_main_v17 (F := Ideal) x aw (ix4 b n h i) := by
  refine (val_main_v19_apply x aw _).trans ((val_main_v18_apply x aw _).trans (congrArg (val_main_v17 (F := Ideal) x aw) ?_))
  exact funext fun a => Fin.ext (by match a with | ⟨0, _⟩ => rfl | ⟨1, _⟩ => rfl | ⟨2, _⟩ => rfl | ⟨3, _⟩ => rfl)

/-- The quotient: the row's softmax at `j`. -/
theorem v20_ix (x : XT) (aw : AT) (b n : Fin 4) (h : Fin 8) (i j : Fin 1024) :
    val_main_v20 (F := Ideal) x aw (ix5 b n h i j)
      = rowSoftmax (fun j' : Fin 1024 => score (val_main_v1 (F := Ideal) x) aw b n h i j') j := by
  refine (val_main_v20_apply x aw _).trans ?_
  unfold Cert.Attn.rowSoftmax
  show Ideal.div (val_main_v16 (F := Ideal) x aw (ix5 b n h i j)) (val_main_v19 (F := Ideal) x aw (ix5 b n h i j)) = _
  rw [v16_ix, v19_ix, v17_ix]

/-! ## The whole program -/

/-- The reference program's result is the specification's weights: its last stage moves the head axis after the
    query axis, which is the layout `G` is stated in. -/
theorem ref_eq (x : (⟨Cert.ReferenceIdeal.S4x4x1024x512, .f32⟩ : BufTy).Contents (Elt Ideal))
    (aw : (⟨Cert.ReferenceIdeal.S4x4x8x1024x128, .f32⟩ : BufTy).Contents (Elt Ideal)) :
    Cert.ReferenceIdeal.Read.val_main_v21 (F := Ideal) x aw = Cert.Attn.G (Cert.Attn.heads x) aw := by
  funext o
  obtain ⟨b, n, i, h, j, rfl⟩ : ∃ (b n : Fin 4) (i : Fin 1024) (h : Fin 8) (j : Fin 1024), o = ix5 b n i h j :=
    ⟨o 0, o 1, o 2, o 3, o 4, eq_ix5 o⟩
  refine Eq.trans ?_ (Cert.Attn.G_ix (Cert.Attn.heads x) aw b n i h j).symm
  rw [heads_eq]
  refine (val_main_v21_apply x aw _).trans ?_
  have e : idx_main_v21 (ix5 b n i h j) = ix5 b n h i j :=
    funext fun a => Fin.ext (by match a with | ⟨0, _⟩ => rfl | ⟨1, _⟩ => rfl | ⟨2, _⟩ => rfl | ⟨3, _⟩ => rfl | ⟨4, _⟩ => rfl)
  exact (congrArg (val_main_v20 (F := Ideal) x aw) e).trans (v20_ix x aw b n h i j)

end Cert.RefStages

end
-- ==== Proof.lean ====
/-
  Graph-attention weights: a kernel that computes them block by block against the plain array program.

  For features `x` split into 8 heads of 64 and attention vectors `a = [a₁ ‖ a₂]`, the score of query row `i`
  against key row `j` is `a₁ᵢ · xᵢ + a₂ᵢ · xⱼ`, and the weights are the softmax of the scores over `j`, laid out
  with the head axis after the query axis (`Cert.Attn.G`, Proof/Spec.lean).

  * The kernel's program runs a grid of 4 · 4 · 8 points, each writing the weights of 128 query rows of one
    (batch, neighbourhood) pair from three blocks it reads. Its frame — it ends, nothing faults, the arguments end
    unchanged — is proved once at any float instance (Proof/KernelFrame.lean for the words, Proof/KernelIdealFrame.lean
    at the ideal values): the array both the keys' and the queries' windows read is lent to them at two half shares.
  * At the ideal values, where a change of float format is the identity and the matrix unit's product is the exact
    sum, what a point writes is the block of `G` (Proof/BlockValue.lean, Proof/KernelIdealValue.lean), and the blocks
    tile the result.
  * The reference program is `G` stage by stage (Proof/RefStages.lean).
  The two sides are the same formula: no algebraic law joins them, and no input needs to be finite.
  Nothing was rewritten between the kernel's program and its idealization, so that claim is trivial.
-/
import proofs.«102214_j79688823210736_1_alg».proof.Defs
import proofs.«102214_j79688823210736_1_alg».proof.Proof.Gen.Kernel
import proofs.«102214_j79688823210736_1_alg».proof.Proof.Gen.KernelIdeal
import proofs.«102214_j79688823210736_1_alg».proof.Proof.Gen.ReferenceIdeal
import proofs.«102214_j79688823210736_1_alg».proof.Proof.Gen.Pre_finite_inputs
import proofs.«102214_j79688823210736_1_alg».proof.Proof.Gen.ReferenceIdeal.Run
import proofs.«102214_j79688823210736_1_alg».proof.Proof.Gen.ReferenceIdeal.Read
import proofs.«102214_j79688823210736_1_alg».proof.Proof.KernelFrame
import proofs.«102214_j79688823210736_1_alg».proof.Proof.KernelIdealFrame
import proofs.«102214_j79688823210736_1_alg».proof.Proof.KernelIdealValue
import proofs.«102214_j79688823210736_1_alg».proof.Proof.RefStages

noncomputable section

namespace Cert.Proof

open Idealize.ShloMosaic Idealize.ShloMosaic.TcCoe Idealize.SL.Sem

/-- The kernel's program, on words: it runs to the end and leaves its arguments. -/
theorem frame_words : Cert.frame_Kernel := fun m ρ _ => Cert.Kernel.Hand.frame m ρ

/-- The same program at the ideal values. -/
theorem frame_ideal : Cert.frame_KernelIdeal := fun m ρ _ => Cert.KernelIdeal.Hand.frame m ρ

/-- The reference program: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values both programs end with the weights `G` of the same arguments. -/
theorem algebraic : Cert.algebraic_KernelIdeal_ReferenceIdeal := by
  intro m ρ m' ρ' _ hagree
  refine ⟨fun c => Cert.Attn.G (Cert.Attn.heads (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.RefStages.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_words, frame_ideal, frame_reference, preserves, algebraic⟩

end Cert.Proof

end
